-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x131072 : Shape := ⟨2, ![64, 131072]⟩
abbrev S64 : Shape := ⟨1, ![64]⟩
abbrev S_ : Shape := ⟨0, ![]⟩

class Facts : Prop where
  bcast_S_S64x131072 : S_.BroadcastsInDim S64x131072 (![] : Fin 0 → Fin S64x131072.rank)
  reducesTo_S64x131072_S_d0_1 : S64x131072.ReducesTo [0, 1] S_
  h_S_ : 0 < S_.numel

variable [Facts]

def fn_part1 {F : FTy → Type} [FloatOps F] (main_v13 : IVec S_ 1) (main_v16 : IVec S64x131072 1) : IVec S_ 1 :=
  let main_c_5 : IVec S_ 1 := constantI S_ 1 1#1
  let main_v17 : IVec S_ 1 := (fun x v => Host.reduce IntOp.andi x v reducesTo_S64x131072_S_d0_1 h_S_) main_v16 main_c_5
  let main_v18 : IVec S_ 1 := andi main_v13 main_v17
  main_v18

def fn {F : FTy → Type} [FloatOps F] (main_arg0 : FVec F S64x131072 .f32) (main_arg1 : FVec F S64x131072 .f32) (main_arg2 : FVec F S64x131072 .f32) (main_arg3 : FVec F S64x131072 .f32) (main_arg4 : IVec S64 32) : IVec S_ 1 :=
  let main_v0 : FVec F S64x131072 .f32 := Host.absf main_arg0
  let main_cst : FVec F S_ .f32 := constant S_ .f32 0x7F800000#32
  let main_v1 : FVec F S64x131072 .f32 := broadcastInDim S64x131072 ![] bcast_S_S64x131072 main_cst
  let main_v2 : IVec S64x131072 1 := cmpf .olt main_v0 main_v1
  let main_c : IVec S_ 1 := constantI S_ 1 1#1
  let main_v3 : IVec S_ 1 := (fun x v => Host.reduce IntOp.andi x v reducesTo_S64x131072_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S64x131072 .f32 := Host.absf main_arg2
  let main_cst_2 : FVec F S_ .f32 := constant S_ .f32 0x7F800000#32
  let main_v10 : FVec F S64x131072 .f32 := broadcastInDim S64x131072 ![] bcast_S_S64x131072 main_cst_2
  let main_v11 : IVec S64x131072 1 := cmpf .olt main_v9 main_v10
  let main_c_3 : IVec S_ 1 := constantI S_ 1 1#1
  let main_v12 : IVec S_ 1 := (fun x v => Host.reduce IntOp.andi x v reducesTo_S64x131072_S_d0_1 h_S_) main_v11 main_c_3
  let main_v13 : IVec S_ 1 := andi main_v8 main_v12
  let main_v14 : FVec F S64x131072 .f32 := Host.absf main_arg3
  let main_cst_4 : FVec F S_ .f32 := constant S_ .f32 0x7F800000#32
  let main_v15 : FVec F S64x131072 .f32 := broadcastInDim S64x131072 ![] bcast_S_S64x131072 main_cst_4
  let main_v16 : IVec S64x131072 1 := cmpf .olt main_v14 main_v15
  fn_part1 (F := F) main_v13 main_v16
-- ==== Kernel.lean ====
abbrev S64x131072 : Shape := ⟨2, ![64, 131072]⟩
abbrev S64 : Shape := ⟨1, ![64]⟩
abbrev S64x1 : Shape := ⟨2, ![64, 1]⟩
abbrev S64x7 : Shape := ⟨2, ![64, 7]⟩
abbrev S8x1 : Shape := ⟨2, ![8, 1]⟩
abbrev S8x65536 : Shape := ⟨2, ![8, 65536]⟩
abbrev S8x7 : Shape := ⟨2, ![8, 7]⟩
abbrev S8x128 : Shape := ⟨2, ![8, 128]⟩
abbrev S8 : Shape := ⟨1, ![8]⟩
abbrev S8x121 : Shape := ⟨2, ![8, 121]⟩
abbrev S_ : Shape := ⟨0, ![]⟩

abbrev nBuf : Space → Nat
  | .hbm => 109
  | .vmem => 13
  | .smem => 0
  | _ => 0

abbrev bufTy : (tb : Table) → Fin (tcTables nBuf tb) → BufTy
  | .hbm, ⟨0, _⟩ => ⟨S64x131072, .f32⟩
  | .hbm, ⟨1, _⟩ => ⟨S64x131072, .f32⟩
  | .hbm, ⟨2, _⟩ => ⟨S64x131072, .f32⟩
  | .hbm, ⟨3, _⟩ => ⟨S64x131072, .f32⟩
  | .hbm, ⟨4, _⟩ => ⟨S64, .i32⟩
  | .hbm, ⟨5, _⟩ => ⟨S64x1, .i32⟩
  | .hbm, ⟨6, _⟩ => ⟨S64x7, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S64, .f32⟩
  | .hbm, ⟨15, _⟩ => ⟨S64x1, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S8x1, .i32⟩
  | .local _ .vmem, ⟨1, _⟩ => ⟨S8x1, .i32⟩
  | .local _ .vmem, ⟨2, _⟩ => ⟨S8x65536, .f32⟩
  | .local _ .vmem, ⟨3, _⟩ => ⟨S8x65536, .f32⟩
  | .local _ .vmem, ⟨4, _⟩ => ⟨S8x65536, .f32⟩
  | .local _ .vmem, ⟨5, _⟩ => ⟨S8x65536, .f32⟩
  | .local _ .vmem, ⟨6, _⟩ => ⟨S8x65536, .f32⟩
  | .local _ .vmem, ⟨7, _⟩ => ⟨S8x65536, .f32⟩
  | .local _ .vmem, ⟨8, _⟩ => ⟨S8x65536, .f32⟩
  | .local _ .vmem, ⟨9, _⟩ => ⟨S8x65536, .f32⟩
  | .local _ .vmem, ⟨10, _⟩ => ⟨S8x7, .f32⟩
  | .local _ .vmem, ⟨11, _⟩ => ⟨S8x7, .f32⟩
  | .local _ .vmem, ⟨12, _⟩ => ⟨S8x128, .f32⟩
  | _, _ => ⟨S64x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_12 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_16 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_17 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v52 : BitVec 1 := Scalar.cmpi .eq arg1 c1_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x7 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64_S64x1 : S64.ShapeCasts S64x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S8x65536_d1_w32 : S8x65536.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x65536 : S8x1.Broadcasts S8x65536
  inb_S8x65536_S8x65536_0_0 : ∀ a, (![0, 0] : Fin 2 → Nat) a + S8x65536.size a ≤ S8x65536.size a
  h_S8x65536 : 0 < S8x65536.numel
  reduces_S8x65536_S8 : S8x65536.Reduces [1] S8
  shapeCasts_S8_S8x1 : S8.ShapeCasts S8x1
  concatenates_S8x1_S8x1_S8x1_S8x1_S8x1_S8x1_S8x1_S8x7_d1 : Shape.Concatenates [S8x1, S8x1, S8x1, S8x1, S8x1, S8x1, S8x1] S8x7 1
  concatenates_S8x7_S8x121_S8x128_d1 : Shape.Concatenates [S8x7, S8x121] S8x128 1
  slices_S8x128_o0_0_S8x7 : S8x128.Slices ![0, 0] S8x7
  inb_S8x7_S8x7_0_0 : ∀ a, (![0, 0] : Fin 2 → Nat) a + S8x7.size a ≤ S8x7.size a
  h_S8x7 : 0 < S8x7.numel
  slices_S64x7_S64x1_0_0 : S64x7.Slices ![0, 0] S64x1
  shapeCasts_S64x1_S64 : S64x1.ShapeCasts S64
  slices_S64x7_S64x1_0_1 : S64x7.Slices ![0, 1] S64x1
  slices_S64x7_S64x1_0_2 : S64x7.Slices ![0, 2] S64x1
  slices_S64x7_S64x1_0_3 : S64x7.Slices ![0, 3] S64x1
  slices_S64x7_S64x1_0_4 : S64x7.Slices ![0, 4] S64x1
  slices_S64x7_S64x1_0_5 : S64x7.Slices ![0, 5] S64x1
  slices_S64x7_S64x1_0_6 : S64x7.Slices ![0, 6] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S64x1.size a
  hwx0_0 : ∀ i : grid0.Coords, EltTy.bits .i32 = 32 ∨ (Rect.block (s := S64x1) S8x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x65536.size a ≤ S64x131072.size a
  hwx0_1 : ∀ i : grid0.Coords, EltTy.bits .f32 = 32 ∨ (Rect.block (s := S64x131072) S8x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x65536.size a ≤ S64x131072.size a
  hwx0_2 : ∀ i : grid0.Coords, EltTy.bits .f32 = 32 ∨ (Rect.block (s := S64x131072) S8x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x65536.size a ≤ S64x131072.size a
  hwx0_3 : ∀ i : grid0.Coords, EltTy.bits .f32 = 32 ∨ (Rect.block (s := S64x131072) S8x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x65536.size a ≤ S64x131072.size a
  hwx0_4 : ∀ i : grid0.Coords, EltTy.bits .f32 = 32 ∨ (Rect.block (s := S64x131072) S8x65536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x7.size a ≤ S64x7.size a
  hwx0_5 : ∀ i : grid0.Coords, EltTy.bits .f32 = 32 ∨ (Rect.block (s := S64x7) S8x7.size (cc0_transform_5 i) (hinb0_5 i)).WholeWords (EltTy.packing .f32)

variable [Facts₀]

abbrev win0_0 : Pipeline.Window sig grid0 :=
  Pipeline.Window.ofSpec (Memref.whole main_v0) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x65536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S8x65536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x7.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x131072 : Shape := ⟨2, ![64, 131072]⟩
abbrev S64 : Shape := ⟨1, ![64]⟩
abbrev S131072 : Shape := ⟨1, ![131072]⟩
abbrev S1x131072 : Shape := ⟨2, ![1, 131072]⟩
abbrev S64x1 : Shape := ⟨2, ![64, 1]⟩
abbrev S_ : Shape := ⟨0, ![]⟩

abbrev nBuf : Space → Nat
  | .hbm => 133
  | .vmem => 0
  | .smem => 0
  | _ => 0

abbrev hbmTy0_0 (i : Nat) : BufTy := match i % 128 with
  | 0 => ⟨S64x131072, .f32⟩
  | 1 => ⟨S64x131072, .f32⟩
  | 2 => ⟨S64x131072, .f32⟩
  | 3 => ⟨S64x131072, .f32⟩
  | 4 => ⟨S64, .i32⟩
  | 5 => ⟨S131072, .i32⟩
  | 6 => ⟨S1x131072, .i32⟩
  | 7 => ⟨S64x1, .i32⟩
  | 8 => ⟨S64x131072, .i32⟩
  | 9 => ⟨S64x131072, .i32⟩
  | 10 => ⟨S64x131072, .i1⟩
  | 11 => ⟨S64x131072, .f32⟩
  | 12 => ⟨S64x131072, .f32⟩
  | 13 => ⟨S64x131072, .f32⟩
  | 14 => ⟨S64x131072, .f32⟩
  | 15 => ⟨S_, .f32⟩
  | 16 => ⟨S64, .f32⟩
  | 17 => ⟨S64x131072, .f32⟩
  | 18 => ⟨S_, .f32⟩
  | 19 => ⟨S64, .f32⟩
  | 20 => ⟨S64, .f32⟩
  | 21 => ⟨S64x1, .f32⟩
  | 22 => ⟨S64x131072, .f32⟩
  | 23 => ⟨S64x131072, .f32⟩
  | 24 => ⟨S64x131072, .f32⟩
  | 25 => ⟨S_, .f32⟩
  | 26 => ⟨S64, .f32⟩
  | 27 => ⟨S64, .f32⟩
  | 28 => ⟨S64x131072, .f32⟩
  | 29 => ⟨S64x131072, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S64x131072, .f32⟩
  | 48 => ⟨S64x131072, .f32⟩
  | 49 => ⟨S64x131072, .f32⟩
  | 50 => ⟨S_, .f32⟩
  | 51 => ⟨S64, .f32⟩
  | 52 => ⟨S64x131072, .f32⟩
  | 53 => ⟨S_, .f32⟩
  | 54 => ⟨S64, .f32⟩
  | 55 => ⟨S64, .f32⟩
  | 56 => ⟨S64x1, .f32⟩
  | 57 => ⟨S64x131072, .f32⟩
  | 58 => ⟨S64x131072, .f32⟩
  | 59 => ⟨S64x131072, .f32⟩
  | 60 => ⟨S_, .f32⟩
  | 61 => ⟨S64, .f32⟩
  | 62 => ⟨S64, .f32⟩
  | 63 => ⟨S64x131072, .f32⟩
  | 64 => ⟨S64x131072, .f32⟩
  | 65 => ⟨S_, .f32⟩
  | 66 => ⟨S64, .f32⟩
  | 67 => ⟨S64, .f32⟩
  | 68 => ⟨S_, .f32⟩
  | 69 => ⟨S64, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S64x131072, .f32⟩
  | 83 => ⟨S64x131072, .f32⟩
  | 84 => ⟨S64x131072, .f32⟩
  | 85 => ⟨S_, .f32⟩
  | 86 => ⟨S64, .f32⟩
  | 87 => ⟨S64x131072, .f32⟩
  | 88 => ⟨S_, .f32⟩
  | 89 => ⟨S64, .f32⟩
  | 90 => ⟨S64, .f32⟩
  | 91 => ⟨S64x1, .f32⟩
  | 92 => ⟨S64x131072, .f32⟩
  | 93 => ⟨S64x131072, .f32⟩
  | 94 => ⟨S64x131072, .f32⟩
  | 95 => ⟨S_, .f32⟩
  | 96 => ⟨S64, .f32⟩
  | 97 => ⟨S64, .f32⟩
  | 98 => ⟨S64x131072, .f32⟩
  | 99 => ⟨S64x131072, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S64, .f32⟩
  | 111 => ⟨S_, .f32⟩
  | 112 => ⟨S64, .f32⟩
  | 113 => ⟨S64, .f32⟩
  | 114 => ⟨S_, .f32⟩
  | 115 => ⟨S64, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S64x131072, .f32⟩

abbrev hbmTy0_1 (i : Nat) : BufTy := match i % 128 with
  | 0 => ⟨S64, .f32⟩
  | 1 => ⟨S_, .f32⟩
  | 2 => ⟨S_, .f32⟩
  | 3 => ⟨S_, .f32⟩
  | 4 => ⟨S_, .f32⟩
  | _ => ⟨S64x131072, .f32⟩

abbrev hbmTy (i : Nat) : BufTy := match i / 128 with
  | 0 => hbmTy0_0 i
  | 1 => hbmTy0_1 i
  | _ => ⟨S64x131072, .f32⟩

abbrev bufTy : (tb : Table) → Fin (tcTables nBuf tb) → BufTy
  | .hbm, ⟨i, _⟩ => hbmTy i
  | _, _ => ⟨S64x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_cst_14 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_15 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_cst_22 : Ref sig .tc := ⟨.hbm, 114, rfl⟩
abbrev main_v86 : Ref sig .tc := ⟨.hbm, 115, rfl⟩
abbrev main_v87 : Ref sig .tc := ⟨.hbm, 116, rfl⟩
abbrev main_cst_23 : Ref sig .tc := ⟨.hbm, 117, rfl⟩
abbrev main_v88 : Ref sig .tc := ⟨.hbm, 118, rfl⟩
abbrev main_v89 : Ref sig .tc := ⟨.hbm, 119, rfl⟩
abbrev main_cst_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_25 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_26 : Ref sig .tc := ⟨.hbm, 129, rfl⟩
abbrev main_v97 : Ref sig .tc := ⟨.hbm, 130, rfl⟩
abbrev main_cst_27 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  bcast_S131072_S1x131072_1 : S131072.BroadcastsInDim S1x131072 (![1] : Fin 1 → Fin S1x131072.rank)
  bcast_S64_S64x1_0 : S64.BroadcastsInDim S64x1 (![0] : Fin 1 → Fin S64x1.rank)
  bcast_S1x131072_S64x131072_0_1 : S1x131072.BroadcastsInDim S64x131072 (![0, 1] : Fin 2 → Fin S64x131072.rank)
  bcast_S64x1_S64x131072_0_1 : S64x1.BroadcastsInDim S64x131072 (![0, 1] : Fin 2 → Fin S64x131072.rank)
  reducesTo_S64x131072_S64_d1 : S64x131072.ReducesTo [1] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.K.Runs.lean ====
/-
  What the two case runs of the kernel body share, at any float instance: the buffer contents when the region is
  entered (the one host reshape before it applied to the launch memory), @main as "the lines before, the region, the
  lines after", the facts about the later lines the launch theorem asks for (they touch only unscoped buffers, allocate
  nothing, and write no array of the pipeline), each window's block at a grid point read off its array, the two branch
  conditions of the body decided over the grid (the scratch is reset where the second grid coordinate is 0, the output
  block is stored where it is 1), where the output window is idle, and the invariant with the scratch as a memref.
-/
import proofs.«175789_j74741020885129_2_alg».proof.Proof.Gen.Kernel.Launch
import proofs.«175789_j74741020885129_2_alg».proof.Proof.Gen.Kernel.Skeleton
import proofs.«175789_j74741020885129_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: the launch memory after the reshape of the lengths. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each later line writes only its own result buffer, which is none of the six arrays the pipeline stages. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes none of the five arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (where it is not
    fetched its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The scratch is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The output block is stored: the second grid coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points it is live. -/
theorem liveAt0_5_B : ∀ t : Fin cfg0.N, ¬cond0_0 (grid0.coords t) → cond0_1 (grid0.coords t) → cfg0.idle 5 (grid0.coords t) = false := by decide +kernel

/-! ## The memrefs the body is called on -/

/-- One staging buffer of the output window, through which its contents are stated. -/
abbrev VO0_5 : View sig .tc .vmem S8x7 .f32 := (Memref.whole cc0_stg5_0 : Memref sig .tc .vmem S8x7 .f32).view
abbrev ms0_0 (t : Fin cfg0.N) : Memref sig .tc .vmem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x65536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x65536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x65536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x7 .f32 := win0_5.stage (cfg0.slots t 5)
abbrev hs0_5 (t : Fin cfg0.N) : (ms0_5 t).IsWhole := hstage0_5 ((cfg0.slots t 5).cast nbuf0_5)
/-- The scratch accumulator, a whole scoped buffer of the kernel's own. -/
abbrev scM0_0 : Memref sig .tc .vmem S8x128 .f32 := Memref.whole cc0_scratch0
abbrev VS0_0 : View sig .tc .vmem S8x128 .f32 := scM0_0.view

/-- The launch's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body where the second grid coordinate is 0: it zeroes the scratch accumulator, adds this block's seven masked
  row sums into it, and stores nothing into the output block. On whole staging buffers holding the five input
  blocks, the output buffer at any contents (handed back untouched) and the scratch at any contents, the body runs
  to the end leaving the inputs as they were and the scratch with the pieces its stores wrote.
-/
import proofs.«175789_j74741020885129_2_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) :
    Σ' (L5 : List (View.Piece (Elt F) S8x7 .f32)), { LS0 : List (View.Piece (Elt F) S8x128 .f32) //
      ∀ (xi5 : Vec F S8x7 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__sisdr_reduce_kernel i arg2 harg2 arg3 harg3 arg4 harg4 arg5 harg5 arg6 harg6 arg7 harg7 arg8 harg8) K } := by
  refine ⟨[], ?_, fun xi5 E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.K.RunB.lean ====
/-
  The body where the second grid coordinate is 1: the scratch accumulator is kept, this block's seven masked row sums
  are added into it, and its first seven columns are stored as the output block. On whole staging buffers holding
  the five input blocks, the output buffer at any contents and the scratch at the contents the point before left, the
  body runs to the end leaving the inputs as they were, and the output buffer and the scratch with the pieces its
  stores wrote.
-/
import proofs.«175789_j74741020885129_2_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) :
    Σ' (L5 : List (View.Piece (Elt F) S8x7 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__sisdr_reduce_kernel i arg2 harg2 arg3 harg3 arg4 harg4 arg5 harg5 arg6 harg6 arg7 harg7 arg8 harg8) K } := by
  refine ⟨?_, ?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.K.Frame.lean ====
/-
  The frame run of the program, at any float instance. What the output buffer and the scratch accumulator hold after
  the body at each grid point is stated by recursion on the point: at an even point (second coordinate 0) the scratch
  is this block's partial sums over zeros and the output buffer is not touched; at an odd point the scratch is the
  partial sums added to what the point before left, and the output block is its first seven columns. With that as the
  pipeline's proof data the body meets its obligation at every point (one case run per parity), and the launch theorem
  for a region followed by host lines gives the run of @main: every array of the pipeline ends at what the proof data
  says and every other unscoped buffer at what the later lines compute. The frame claim is that run read at the five
  argument arrays.
-/
import proofs.«175789_j74741020885129_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- No line after the region writes the lengths, and no window stages them: they end as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## What each case leaves -/

/-- At an even point nothing is stored into the output buffer: a placeholder nothing consults. -/
def out0_A_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) : Vec F S8x7 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The stores into the scratch at an even point cover it. -/
theorem scover0_A_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) (y : S8x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S8x128.size (by sl_kernel_rfl) y

/-- What an even point leaves in the scratch. -/
def sout0_A_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) : Vec F S8x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The one store into the output buffer at an odd point covers it. -/
theorem cover0_B_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) (y : S8x7.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S8x7.size (by sl_kernel_rfl) y

/-- What an odd point leaves in the output buffer. -/
def out0_B_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) : Vec F S8x7 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The store into the scratch at an odd point covers it. -/
theorem scover0_B_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) (y : S8x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S8x128.size (by sl_kernel_rfl) y

/-- What an odd point leaves in the scratch. -/
def sout0_B_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-! ## What the output buffer and the scratch hold after each point -/

/-- After the body at position `n`: (the output buffer, the scratch). Even positions run the resetting case on this
    point's blocks; odd positions run the storing case on this point's blocks over the scratch the position before
    left. -/
def outsAt0 (c : Dev nD) : (n : ℕ) → n < cfg0.N → Vec F S8x7 .f32 × Vec F S8x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        False.elim (by omega)

/-- At an even point. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At an odd point: over what the point before left. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input buffer at its block and the output buffer at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the parity of the point says which case it is in;
    the invariant hands the body the scratch (at anything before the first point, else at what the point before left)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    · -- an even point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 2 = 1
    · -- an odd point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_B t (fun h => h0 ((hcond0_0 t).mp h)) ((hcond0_1 t).mpr h1)], after0_5]
      rw [outsAt0_B m c t h0 h1]
      unfold out0_B_5 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _)
    · exfalso; omega

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option backward.isDefEq.respectTransparency.types false in
/-- Every weakly fair execution of @main terminates, and every final state has every array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The five argument arrays end as launched: each is a staged input array of the pipeline (the lengths' reshaped
    copy is the staged one; the lengths themselves bypass the pipeline), read off the run's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩) (run_main m ρ)

end Cert.Kernel.Fr

end
-- ==== Proof.KI.Runs.lean ====
/-
  What the two case runs of the kernel body share, at any float instance: the buffer contents when the region is
  entered (the one host reshape before it applied to the launch memory), @main as "the lines before, the region, the
  lines after", the facts about the later lines the launch theorem asks for (they touch only unscoped buffers, allocate
  nothing, and write no array of the pipeline), each window's block at a grid point read off its array, the two branch
  conditions of the body decided over the grid (the scratch is reset where the second grid coordinate is 0, the output
  block is stored where it is 1), where the output window is idle, and the invariant with the scratch as a memref.
-/
import proofs.«175789_j74741020885129_2_alg».proof.Proof.Gen.KernelIdeal.Launch
import proofs.«175789_j74741020885129_2_alg».proof.Proof.Gen.KernelIdeal.Skeleton
import proofs.«175789_j74741020885129_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: the launch memory after the reshape of the lengths. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main is the lines before the region, the region, and the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 40000000 in
/-- Each later line writes only its own result buffer, which is none of the six arrays the pipeline stages. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshape before the region writes none of the five arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (where it is not
    fetched its block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The scratch is reset: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The output block is stored: the second grid coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the output window is idle and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the odd points it is live. -/
theorem liveAt0_5_B : ∀ t : Fin cfg0.N, ¬cond0_0 (grid0.coords t) → cond0_1 (grid0.coords t) → cfg0.idle 5 (grid0.coords t) = false := by decide +kernel

/-! ## The memrefs the body is called on -/

/-- One staging buffer of the output window, through which its contents are stated. -/
abbrev VO0_5 : View sig .tc .vmem S8x7 .f32 := (Memref.whole cc0_stg5_0 : Memref sig .tc .vmem S8x7 .f32).view
abbrev ms0_0 (t : Fin cfg0.N) : Memref sig .tc .vmem S8x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x65536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x65536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x65536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x65536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x7 .f32 := win0_5.stage (cfg0.slots t 5)
abbrev hs0_5 (t : Fin cfg0.N) : (ms0_5 t).IsWhole := hstage0_5 ((cfg0.slots t 5).cast nbuf0_5)
/-- The scratch accumulator, a whole scoped buffer of the kernel's own. -/
abbrev scM0_0 : Memref sig .tc .vmem S8x128 .f32 := Memref.whole cc0_scratch0
abbrev VS0_0 : View sig .tc .vmem S8x128 .f32 := scM0_0.view

/-- The launch's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body where the second grid coordinate is 0: it zeroes the scratch accumulator, adds this block's seven masked
  row sums into it, and stores nothing into the output block. On whole staging buffers holding the five input
  blocks, the output buffer at any contents (handed back untouched) and the scratch at any contents, the body runs
  to the end leaving the inputs as they were and the scratch with the pieces its stores wrote.
-/
import proofs.«175789_j74741020885129_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) :
    Σ' (L5 : List (View.Piece (Elt F) S8x7 .f32)), { LS0 : List (View.Piece (Elt F) S8x128 .f32) //
      ∀ (xi5 : Vec F S8x7 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__sisdr_reduce_kernel i arg2 harg2 arg3 harg3 arg4 harg4 arg5 harg5 arg6 harg6 arg7 harg7 arg8 harg8) K } := by
  refine ⟨[], ?_, fun xi5 E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.RunB.lean ====
/-
  The body where the second grid coordinate is 1: the scratch accumulator is kept, this block's seven masked row sums
  are added into it, and its first seven columns are stored as the output block. On whole staging buffers holding
  the five input blocks, the output buffer at any contents and the scratch at the contents the point before left, the
  body runs to the end leaving the inputs as they were, and the output buffer and the scratch with the pieces its
  stores wrote.
-/
import proofs.«175789_j74741020885129_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) :
    Σ' (L5 : List (View.Piece (Elt F) S8x7 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__sisdr_reduce_kernel i arg2 harg2 arg3 harg3 arg4 harg4 arg5 harg5 arg6 harg6 arg7 harg7 arg8 harg8) K } := by
  refine ⟨?_, ?_, fun E K => ?run⟩
  case run =>
    simp only [cc0__sisdr_reduce_kernel_eq_skeleton]; unfold cc0__sisdr_reduce_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.Frame.lean ====
/-
  The frame run of the program, at any float instance. What the output buffer and the scratch accumulator hold after
  the body at each grid point is stated by recursion on the point: at an even point (second coordinate 0) the scratch
  is this block's partial sums over zeros and the output buffer is not touched; at an odd point the scratch is the
  partial sums added to what the point before left, and the output block is its first seven columns. With that as the
  pipeline's proof data the body meets its obligation at every point (one case run per parity), and the launch theorem
  for a region followed by host lines gives the run of @main: every array of the pipeline ends at what the proof data
  says and every other unscoped buffer at what the later lines compute. The frame claim is that run read at the five
  argument arrays.
-/
import proofs.«175789_j74741020885129_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 40000000 in
/-- No line after the region writes the lengths, and no window stages them: they end as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## What each case leaves -/

/-- At an even point nothing is stored into the output buffer: a placeholder nothing consults. -/
def out0_A_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) : Vec F S8x7 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The stores into the scratch at an even point cover it. -/
theorem scover0_A_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) (y : S8x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S8x128.size (by sl_kernel_rfl) y

/-- What an even point leaves in the scratch. -/
def sout0_A_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i)
    (x0 : Vec F S8x1 .i32) (x1 x2 x3 x4 : Vec F S8x65536 .f32) : Vec F S8x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The one store into the output buffer at an odd point covers it. -/
theorem cover0_B_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) (y : S8x7.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S8x7.size (by sl_kernel_rfl) y

/-- What an odd point leaves in the output buffer. -/
def out0_B_5 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) : Vec F S8x7 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The store into the scratch at an odd point covers it. -/
theorem scover0_B_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) (y : S8x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S8x128.size (by sl_kernel_rfl) y

/-- What an odd point leaves in the scratch. -/
def sout0_B_0 (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i)
    (x0 : Vec F S8x1 .i32) (x1 x2 x3 x4 : Vec F S8x65536 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-! ## What the output buffer and the scratch hold after each point -/

/-- After the body at position `n`: (the output buffer, the scratch). Even positions run the resetting case on this
    point's blocks; odd positions run the storing case on this point's blocks over the scratch the position before
    left. -/
def outsAt0 (c : Dev nD) : (n : ℕ) → n < cfg0.N → Vec F S8x7 .f32 × Vec F S8x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        False.elim (by omega)

/-- At an even point. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At an odd point: over what the point before left. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (the scratch at anything);
    afterwards the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input buffer at its block and the output buffer at
    `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the parity of the point says which case it is in;
    the invariant hands the body the scratch (at anything before the first point, else at what the point before left)
    and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases h1 : t.val % 2 = 1
    · exfalso; omega
    · -- an even point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 2 = 1
    · -- an odd point
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5_B t (fun h => h0 ((hcond0_0 t).mp h)) ((hcond0_1 t).mpr h1)], after0_5]
      rw [outsAt0_B m c t h0 h1]
      unfold out0_B_5 sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _)
    · exfalso; omega

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option backward.isDefEq.respectTransparency.types false in
/-- Every weakly fair execution of @main terminates, and every final state has every array of the pipeline at what
    the proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The five argument arrays end as launched: each is a staged input array of the pipeline (the lengths' reshaped
    copy is the staged one; the lengths themselves bypass the pipeline), read off the run's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩) (run_main m ρ)

end Cert.KernelIdeal.Fr

end
-- ==== Proof.KI.Pieces.lean ====
/-
  What each case of the body leaves, as a pure term of the point's input blocks: one point's update of the
  accumulator is the body's one arithmetic term `upd` (the seven partial sums of the point's blocks, padded with zeros
  to 128 columns, added onto the accumulator it is given). At an even point the scratch ends at `upd` of the zero
  splat; at an odd point it ends at `upd` of what it held, and the output buffer at the first seven columns of that.
-/
import proofs.«175789_j74741020885129_2_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- One point's update of an accumulator `acc`: the body's store payload over the length words `x0`, the target block
    `x1` and the three estimate blocks `x2 x3 x4`. -/
def upd (i : grid0.Coords) (x0 : Vec F S8x1 .i32) (x1 x2 x3 x4 : Vec F S8x65536 .f32) (acc : Vec F S8x128 .f32) : Vec F S8x128 .f32 :=
  k0_pay1 (k0_pay4 i x0) x4 (k0_pay6 i x0 x1) (k0_pay7 i x0 x1 x2) (k0_pay8 i x0 x1 x3) (k0_pay9 i x0 x1 x4) (k0_pay10 i x0 x2) (k0_pay11 x3) k0_pay12 acc

/-- An even point: the scratch is zeroed, read back, and updated. -/
theorem soutA_eq (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : cond0_0 i) (hc1 : ¬cond0_1 i) (x0 : Vec F S8x1 .i32) (x1 x2 x3 x4 : Vec F S8x65536 .f32) :
    sout0_A_0 c i arg2 harg2 arg3 harg3 arg4 harg4 arg5 harg5 arg6 harg6 arg7 harg7 arg8 harg8 hc0 hc1 x0 x1 x2 x3 x4 = upd i x0 x1 x2 x3 x4 k0_pay3 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  try sl_unfold_words
  rw [View.canon_cons_unit_zero hz, View.readCov_unit_zero (S := S8x128) _ hz]
  unfold upd
  simp only [View.readAt_eq_ld, harg2.read_unread, harg3.read_unread, harg4.read_unread, harg5.read_unread, harg6.read_unread, View.ld_unit_zero (S := S8x1) hz, View.ld_unit_zero (S := S8x65536) hz]

/-- An odd point: the scratch is updated from what it held. -/
theorem soutB_eq (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i) (x0 : Vec F S8x1 .i32) (x1 x2 x3 x4 : Vec F S8x65536 .f32) (xs0 : Vec F S8x128 .f32) :
    sout0_B_0 c i arg2 harg2 arg3 harg3 arg4 harg4 arg5 harg5 arg6 harg6 arg7 harg7 arg8 harg8 hc0 hc1 x0 x1 x2 x3 x4 xs0 = upd i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  try sl_unfold_words
  rw [View.canon_unit_zero hz]
  unfold upd
  simp only [View.readAt_eq_ld, harg2.read_unread, harg3.read_unread, harg4.read_unread, harg5.read_unread, harg6.read_unread, harg8.read_unread, View.ld_unit_zero (S := S8x1) hz, View.ld_unit_zero (S := S8x65536) hz, View.ld_unit_zero (S := S8x128) hz]

/-- An odd point: the output buffer gets the first seven columns of the updated scratch. -/
theorem outB_eq (c : Dev nD) (i : grid0.Coords) (arg2 : Memref sig .tc .vmem S8x1 .i32) (harg2 : arg2.IsWhole) (arg3 : Memref sig .tc .vmem S8x65536 .f32) (harg3 : arg3.IsWhole) (arg4 : Memref sig .tc .vmem S8x65536 .f32) (harg4 : arg4.IsWhole) (arg5 : Memref sig .tc .vmem S8x65536 .f32) (harg5 : arg5.IsWhole) (arg6 : Memref sig .tc .vmem S8x65536 .f32) (harg6 : arg6.IsWhole) (arg7 : Memref sig .tc .vmem S8x7 .f32) (harg7 : arg7.IsWhole) (arg8 : Memref sig .tc .vmem S8x128 .f32) (harg8 : arg8.IsWhole) (hc0 : ¬cond0_0 i) (hc1 : cond0_1 i) (x0 : Vec F S8x1 .i32) (x1 x2 x3 x4 : Vec F S8x65536 .f32) (xs0 : Vec F S8x128 .f32) :
    out0_B_5 c i arg2 harg2 arg3 harg3 arg4 harg4 arg5 harg5 arg6 harg6 arg7 harg7 arg8 harg8 hc0 hc1 x0 x1 x2 x3 x4 xs0 = k0_pay2 (upd i x0 x1 x2 x3 x4 xs0) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  try sl_unfold_words
  rw [View.canon_unit_zero hz, View.readCov_unit_zero (S := S8x128) _ hz]
  unfold upd
  simp only [View.readAt_eq_ld, harg2.read_unread, harg3.read_unread, harg4.read_unread, harg5.read_unread, harg6.read_unread, harg8.read_unread, View.ld_unit_zero (S := S8x1) hz, View.ld_unit_zero (S := S8x65536) hz, View.ld_unit_zero (S := S8x128) hz]

end Cert.KernelIdeal.Fr

end
-- ==== Proof.KI.Blocks.lean ====
/-
  The windows' blocks read at an index.

  The grid is (8, 2), its points in row-major order: point t has first coordinate t / 2 and second coordinate t % 2.
  Each of the four float windows cuts its [64, 131072] array into blocks of [8, 65536] and takes the block (t / 2, t % 2)
  at point t, so entry (r, j) of that block is the array's entry (8·(t / 2) + r, 65536·(t % 2) + j). The lengths window
  cuts the [64, 1] reshape of the lengths into blocks of [8, 1] and takes the block (t / 2, 0), whose entry (r, 0) is
  the reshaped array's entry (8·(t / 2) + r, 0): the row-major position of that entry is 8·(t / 2) + r, so it is the
  lengths vector's entry 8·(t / 2) + r.
-/
import proofs.«175789_j74741020885129_2_alg».proof.Proof.KI.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The rows and columns a point works on -/

/-- Row `r` of the block at point `t` is row 8·(t / 2) + r of the array. -/
def grow (t : Fin cfg0.N) (r : Fin 8) : Fin 64 :=
  ⟨8 * (t.val / 2) + r.val, by
    have h : t.val < grid0.N := t.isLt
    rw [N_0] at h
    have := r.isLt
    omega⟩

/-- Column `j` of the block at point `t` is column 65536·(t % 2) + j of the array. -/
def gcol (t : Fin cfg0.N) (j : Fin 65536) : Fin 131072 :=
  ⟨65536 * (t.val % 2) + j.val, by have := j.isLt; omega⟩

@[simp] theorem grow_val (t : Fin cfg0.N) (r : Fin 8) : (grow t r).val = 8 * (t.val / 2) + r.val := rfl
@[simp] theorem gcol_val (t : Fin cfg0.N) (j : Fin 65536) : (gcol t j).val = 65536 * (t.val % 2) + j.val := rfl

/-! ## The printed index maps over the grid -/

theorem idx_facts0 : ∀ t : Fin cfg0.N, win0_0.index t (0 : Fin 2) = t.val / 2 ∧ win0_0.index t (1 : Fin 2) = 0 :=
  (by decide +kernel : ∀ t : Fin grid0.N, _)
theorem idx_facts1 : ∀ t : Fin cfg0.N, win0_1.index t (0 : Fin 2) = t.val / 2 ∧ win0_1.index t (1 : Fin 2) = t.val % 2 :=
  (by decide +kernel : ∀ t : Fin grid0.N, _)
theorem idx_facts2 : ∀ t : Fin cfg0.N, win0_2.index t (0 : Fin 2) = t.val / 2 ∧ win0_2.index t (1 : Fin 2) = t.val % 2 :=
  (by decide +kernel : ∀ t : Fin grid0.N, _)
theorem idx_facts3 : ∀ t : Fin cfg0.N, win0_3.index t (0 : Fin 2) = t.val / 2 ∧ win0_3.index t (1 : Fin 2) = t.val % 2 :=
  (by decide +kernel : ∀ t : Fin grid0.N, _)
theorem idx_facts4 : ∀ t : Fin cfg0.N, win0_4.index t (0 : Fin 2) = t.val / 2 ∧ win0_4.index t (1 : Fin 2) = t.val % 2 :=
  (by decide +kernel : ∀ t : Fin grid0.N, _)

/-! ## The float windows -/

theorem iblk1_at (c : Dev nD) (t : Fin cfg0.N) (r : Fin 8) (j : Fin 65536) :
    iblk m c 1 t (ix2 r j) = m ((c : Thread nD τ).loc main_arg3) (ix2 (grow t r) (gcol t j)) := by
  obtain ⟨e0, e1⟩ := idx_facts1 t
  unfold iblk
  rw [View.read_apply]
  show V m c main_arg3 _ = _
  rw [V_main_arg3]
  refine congrArg _ (funext fun a => Fin.ext ?_)
  match a with
  | ⟨0, _⟩ => show win0_1.index t (0 : Fin 2) * 8 + 1 * r.val = 8 * (t.val / 2) + r.val; rw [e0]; omega
  | ⟨1, _⟩ => show win0_1.index t (1 : Fin 2) * 65536 + 1 * j.val = 65536 * (t.val % 2) + j.val; rw [e1]; omega

theorem iblk2_at (c : Dev nD) (t : Fin cfg0.N) (r : Fin 8) (j : Fin 65536) :
    iblk m c 2 t (ix2 r j) = m ((c : Thread nD τ).loc main_arg0) (ix2 (grow t r) (gcol t j)) := by
  obtain ⟨e0, e1⟩ := idx_facts2 t
  unfold iblk
  rw [View.read_apply]
  show V m c main_arg0 _ = _
  rw [V_main_arg0]
  refine congrArg _ (funext fun a => Fin.ext ?_)
  match a with
  | ⟨0, _⟩ => show win0_2.index t (0 : Fin 2) * 8 + 1 * r.val = 8 * (t.val / 2) + r.val; rw [e0]; omega
  | ⟨1, _⟩ => show win0_2.index t (1 : Fin 2) * 65536 + 1 * j.val = 65536 * (t.val % 2) + j.val; rw [e1]; omega

theorem iblk3_at (c : Dev nD) (t : Fin cfg0.N) (r : Fin 8) (j : Fin 65536) :
    iblk m c 3 t (ix2 r j) = m ((c : Thread nD τ).loc main_arg1) (ix2 (grow t r) (gcol t j)) := by
  obtain ⟨e0, e1⟩ := idx_facts3 t
  unfold iblk
  rw [View.read_apply]
  show V m c main_arg1 _ = _
  rw [V_main_arg1]
  refine congrArg _ (funext fun a => Fin.ext ?_)
  match a with
  | ⟨0, _⟩ => show win0_3.index t (0 : Fin 2) * 8 + 1 * r.val = 8 * (t.val / 2) + r.val; rw [e0]; omega
  | ⟨1, _⟩ => show win0_3.index t (1 : Fin 2) * 65536 + 1 * j.val = 65536 * (t.val % 2) + j.val; rw [e1]; omega

theorem iblk4_at (c : Dev nD) (t : Fin cfg0.N) (r : Fin 8) (j : Fin 65536) :
    iblk m c 4 t (ix2 r j) = m ((c : Thread nD τ).loc main_arg2) (ix2 (grow t r) (gcol t j)) := by
  obtain ⟨e0, e1⟩ := idx_facts4 t
  unfold iblk
  rw [View.read_apply]
  show V m c main_arg2 _ = _
  rw [V_main_arg2]
  refine congrArg _ (funext fun a => Fin.ext ?_)
  match a with
  | ⟨0, _⟩ => show win0_4.index t (0 : Fin 2) * 8 + 1 * r.val = 8 * (t.val / 2) + r.val; rw [e0]; omega
  | ⟨1, _⟩ => show win0_4.index t (1 : Fin 2) * 65536 + 1 * j.val = 65536 * (t.val % 2) + j.val; rw [e1]; omega

/-! ## The lengths window -/

/-- The array the lengths window reads is the [64] → [64, 1] reshape of the lengths, written by the one host line
    before the region. -/
theorem V_main_v0 (c : Dev nD) :
    (V m c main_v0 : S64x1.Idx → Elt F .i32) = shapeCast S64x1 (m ((c : Thread nD τ).loc main_arg4)) shapeCasts_S64_S64x1 := by
  dsimp only [V, V0]
  simp only [hostOps0, List.flatten_cons, List.flatten_nil, List.append_nil]
  after_results
  rfl

theorem iblk0_at (c : Dev nD) (t : Fin cfg0.N) (r : Fin 8) :
    iblk m c 0 t (ix2 r 0) = m ((c : Thread nD τ).loc main_arg4) (ix1 (grow t r)) := by
  obtain ⟨e0, e1⟩ := idx_facts0 t
  unfold iblk
  rw [View.read_apply]
  show V m c main_v0 _ = _
  rw [V_main_v0]
  refine shapeCast_apply _ _ _ (ix1 (grow t r)) ?_
  rw [Shape.rowMajor_val_one, Shape.rowMajor_val_two]
  show 8 * (t.val / 2) + r.val = (win0_0.index t (0 : Fin 2) * 8 + 1 * r.val) * 1 + (win0_0.index t (1 : Fin 2) * 1 + 1 * 0)
  rw [e0, e1]; omega

end Cert.KernelIdeal.Fr

end
-- ==== Proof.Spec.lean ====
/-
  The two forms of the masked SI-SDR quotient of one row, and the scalar tail both programs apply to it.

  For one row, with target samples `t i`, estimate samples `e i` and a validity predicate `b i` (the sample lies
  before the row's length), write  T = Σ_b t²,  d = Σ_b t·e,  E = Σ_b e².
  The kernel forms  |d| · rsqrt T  over  √(max (E − d²/T) 0) + ε  (`qK`);  the reference projects first,
  a = d / T, s = a · t, and forms  √(Σ s²)  over  √(Σ (s − e)²) + ε  (`qR`).  For finite samples they agree: when
  T > 0 both numerators are |d| / √T and both radicands are E − d²/T ≥ 0; when T = 0 every valid target sample
  is 0, so d = 0 and both numerators are 0, and a zero numerator over a nonzero denominator is 0 on both sides
  (the kernel's denominator is +∞ there, the reference's √E + ε).
-/
import Idealize.ShloMosaic.PureOps.Ideal
import Idealize.ShloMosaic.Lib.ValueIdx
import Mathlib.Algebra.BigOperators.Fin

noncomputable section

namespace Cert.Sisdr

open Idealize.ShloMosaic

/-- The validity bit of sample `J` in a row of length word `L`: the signed comparison `J < L` on 32-bit words. -/
def mbit (L : BitVec 32) (J : ℕ) : BitVec 1 := IntOp.cmpi .slt (BitVec.ofNat 32 J) L

/-! ## The constants of the tail, as the words both programs print -/

def eps : EReal := Ideal.ofBits .f32 0x358637BD#32
def cLog : EReal := Ideal.ofBits .f32 0x3EDE5BD9#32
def c20 : EReal := Ideal.ofBits .f32 0x41A00000#32
def c08 : EReal := Ideal.ofBits .f32 0x3F4CCCCD#32
def c01 : EReal := Ideal.ofBits .f32 0x3DCCCCCD#32
def c64 : EReal := Ideal.ofBits .f32 0x42800000#32

section Row

variable {ι : Type} [Fintype ι] (b : ι → Prop) [DecidablePred b] (t e : ι → EReal) (ε : EReal)

/-! ## The kernel's form: the three masked sums, then the quotient -/

/-- The target sample, zero outside the valid prefix. -/
def tmK (i : ι) : EReal := if b i then t i else 0
/-- T = Σ (masked t)². -/
def TK : EReal := ∑ i, tmK b t i * tmK b t i
/-- d = Σ (masked t) · e  (the estimate is NOT masked here: the masked factor already vanishes). -/
def dK : EReal := ∑ i, tmK b t i * e i
/-- E = Σ over the valid prefix of e². -/
def eK : EReal := ∑ i, if b i then e i * e i else 0
/-- |d| · rsqrt T  over  √(max (E − d·d / T) 0) + ε. -/
def qK : EReal :=
  Ideal.div (max (dK b t e) (-(dK b t e)) * Ideal.rsqrt (TK b t))
    (Ideal.sqrt (max (eK b e - Ideal.div (dK b t e * dK b t e) (TK b t)) 0) + ε)

/-! ## The reference's form: mask both by a 0/1 factor, project, then the quotient -/

/-- The 0/1 mask as a number. -/
def mf (i : ι) : EReal := if b i then 1 else 0
def tR (i : ι) : EReal := t i * mf b i
def eR (i : ι) : EReal := e i * mf b i
/-- The projection scale a = (Σ tR·eR) / (Σ tR·tR). -/
def aR : EReal := Ideal.div (∑ i, tR b t i * eR b e i) (∑ i, tR b t i * tR b t i)
def sR (i : ι) : EReal := aR b t e * tR b t i
/-- √(Σ s²)  over  √(Σ (s − eR)²) + ε. -/
def qR : EReal :=
  Ideal.div (Ideal.sqrt (∑ i, sR b t e i * sR b t e i))
    (Ideal.sqrt (∑ i, (sR b t e i - eR b e i) * (sR b t e i - eR b e i)) + ε)

end Row

/-! ## The tail both programs share -/

/-- 20 · (log (q + ε) · (1/ln 10 as printed)). -/
def sdr (q : EReal) : EReal := c20 * (Ideal.log (q + eps) * cLog)
/-- −((0.8·sdr_s + 0.1·sdr_m) + 0.1·sdr_l), constants as printed. -/
def comb (qs qm ql : EReal) : EReal := -((c08 * sdr qs + c01 * sdr qm) + c01 * sdr ql)
/-- The mean over the 64 rows. -/
def result (qs qm ql : Fin 64 → EReal) : EReal := Ideal.div (∑ r : Fin 64, comb (qs r) (qm r) (ql r)) c64

/-! ## The two results as functions of the argument arrays -/

open Idealize.ShloMosaic.ValueIdx

/-- Row `r` of a [64, 131072] array. -/
def row (x : (⟨2, ![64, 131072]⟩ : Shape).Idx → EReal) (r : Fin 64) (J : Fin 131072) : EReal := x (ix2 r J)
/-- Sample `J` of row `r` is valid: `J < length r` as signed 32-bit words. -/
def rowb (len : (⟨1, ![64]⟩ : Shape).Idx → BitVec 32) (r : Fin 64) (J : Fin 131072) : Prop :=
  mbit (len (ix1 r)) J.val = 1#1

instance (len : (⟨1, ![64]⟩ : Shape).Idx → BitVec 32) (r : Fin 64) : DecidablePred (rowb len r) :=
  fun _ => inferInstanceAs (Decidable (_ = _))

/-- The kernel's scalar: the tail of its three per-row quotients (estimates x0, x1, x2 against the target tg). -/
def kerResult (x0 x1 x2 tg : (⟨2, ![64, 131072]⟩ : Shape).Idx → EReal) (len : (⟨1, ![64]⟩ : Shape).Idx → BitVec 32) : EReal :=
  result (fun r => qK (rowb len r) (row tg r) (row x0 r) eps) (fun r => qK (rowb len r) (row tg r) (row x1 r) eps)
    (fun r => qK (rowb len r) (row tg r) (row x2 r) eps)
/-- The reference's scalar: the same tail of its three per-row quotients. -/
def refResult (x0 x1 x2 tg : (⟨2, ![64, 131072]⟩ : Shape).Idx → EReal) (len : (⟨1, ![64]⟩ : Shape).Idx → BitVec 32) : EReal :=
  result (fun r => qR (rowb len r) (row tg r) (row x0 r) eps) (fun r => qR (rowb len r) (row tg r) (row x1 r) eps)
    (fun r => qR (rowb len r) (row tg r) (row x2 r) eps)

end Cert.Sisdr

end
-- ==== Proof.Spec2.lean ====
/-
  One grid point's contribution, as numbers. A block covers 8 rows and 65536 consecutive samples, the samples
  `t · 65536 + j` of each row for the point's second coordinate `t`. Its seven partial sums for one row are the
  row quantities of the specification taken over the block's samples only: the masked target's square sum, its three
  products with the estimates, and the three masked square sums of the estimates. The body adds them into the first
  seven columns of a 128-column accumulator row and adds zero into the other columns.
-/
import proofs.«175789_j74741020885129_2_alg».proof.Proof.Spec

noncomputable section

namespace Cert.Sisdr

open Idealize.ShloMosaic

/-- Sample `j` of the block at second grid coordinate `t` is valid in a row of length word `L`. -/
def blkb (L : BitVec 32) (t : ℕ) (j : Fin 65536) : Prop := mbit L (t * 65536 + j.val) = 1#1

instance (L : BitVec 32) (t : ℕ) : DecidablePred (blkb L t) := fun _ => inferInstanceAs (Decidable (_ = _))

/-- Column `k` of what one point adds to an accumulator row: the seven partial sums, then zeros. -/
def partial7 {ι : Type} [Fintype ι] (b : ι → Prop) [DecidablePred b] (t e0 e1 e2 : ι → EReal) (k : ℕ) : EReal :=
  match k with
  | 0 => TK b t
  | 1 => dK b t e0
  | 2 => dK b t e1
  | 3 => dK b t e2
  | 4 => eK b e0
  | 5 => eK b e1
  | 6 => eK b e2
  | _ => 0

end Cert.Sisdr

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.Pay.lean ====
/-
  The body's arithmetic read at an index, over the extended reals.

  A grid point with second coordinate t covers, in each of its 8 rows, the samples t·65536 + j for j < 65536. The mask
  bit at (r, j) compares that sample number with the row's length word, so a select on it is the choice on the
  sample's validity. Each of the seven row sums, kept as a column, is at row r the finite sum over j of the selected
  products: the masked target's square sum, its three product sums with the estimates, and the estimates' three masked
  square sums. Seven columns side by side read at column k < 7 give the k-th of them; 121 zero columns follow. The
  body adds this row of 128 numbers to the accumulator's; the initial store writes zeros and the final slice keeps the
  first seven columns.
-/
import proofs.«175789_j74741020885129_2_alg».proof.Proof.Spec2
import proofs.«175789_j74741020885129_2_alg».proof.Proof.Gen.KernelIdeal.Skeleton
import proofs.«175789_j74741020885129_2_alg».proof.Proof.LibRowSum
import proofs.«175789_j74741020885129_2_alg».proof.Proof.LibKeepdimsLayout
import Idealize.ShloMosaic.Lib.ValueIdx
import Idealize.ShloMosaic.Lib.Pipeline.Value
import Idealize.ShloMosaic.PureOps.Ideal.Laws

noncomputable section

namespace Cert.Sisdr.Pay

open Cert.KernelIdeal Cert.KernelIdeal.Gen Idealize.ShloMosaic Idealize.ShloMosaic.ValueIdx
open Cert.KernelIdeal.Facts₀

variable [Cert.KernelIdeal.Facts]

/-- The zero word is the number 0. -/
theorem zero_word : (Scalar.ofBits .f32 0x00000000#32 : Ideal .f32) = 0 := Ideal.ofBits_zero_f32

theorem pay3_at (r : Fin 8) (k : Fin 128) : k0_pay3 (F := Ideal) (ix2 r k) = 0 := by
  unfold k0_pay3
  refine (congrFun (shapeCast_self _ _) (ix2 r k)).trans ?_
  exact zero_word

theorem pay2_at (v55 : Vec Ideal S8x128 .f32) (r : Fin 8) (k : Fin 7) :
    k0_pay2 (F := Ideal) v55 (ix2 r k) = v55 (ix2 r ⟨k.val, by omega⟩) := by
  unfold k0_pay2
  refine extractStridedSlice_apply _ v55 _ (ix2 r k) (ix2 r ⟨k.val, by omega⟩) (fun a => ?_)
  match a with
  | ⟨0, _⟩ => exact (Nat.zero_add _).symm
  | ⟨1, _⟩ => exact (Nat.zero_add _).symm

/-- The mask bit at row r, column j of the block at second grid coordinate t: sample t·65536 + j lies before the
    row's length. -/
theorem pay4_at (i : grid0.Coords) (v7 : Vec Ideal S8x1 .i32) (r : Fin 8) (j : Fin 65536) :
    k0_pay4 (F := Ideal) i v7 (ix2 r j) = mbit (v7 (ix2 r 0)) ((i 1).val * 65536 + j.val) := by
  unfold k0_pay4 mbit
  have h4 : iota .tc S8x65536 32 [1] Gen.iota_S8x65536_d1_w32 (ix2 r j) = BitVec.ofNat 32 j.val :=
    iota_single_apply _ _ _ _ _ _
  have h9 : broadcastTo S8x65536 (shapeCast S8x1 v7 Gen.shapeCasts_S8x1_S8x1) Gen.broadcasts_S8x1_S8x65536 (ix2 r j)
      = v7 (ix2 r 0) := by
    rw [Cert.LayoutKeepdims.broadcastTo_a1_ab_apply, shapeCast_self]
  have hw : BitVec.ofNat 32 (i 1).val * 65536#32 + BitVec.ofNat 32 j.val
      = BitVec.ofNat 32 ((i 1).val * 65536 + j.val) := by
    rw [BitVec.ofNat_add, BitVec.ofNat_mul]
  show IntOp.cmpi .slt (BitVec.ofNat 32 (i 1).val * 65536#32
      + iota .tc S8x65536 32 [1] Gen.iota_S8x65536_d1_w32 (ix2 r j))
    (broadcastTo S8x65536 (shapeCast S8x1 v7 Gen.shapeCasts_S8x1_S8x1) Gen.broadcasts_S8x1_S8x65536 (ix2 r j)) = _
  rw [h4, h9, hw]

/-- A select on the mask at row r, column j is the choice on the sample's validity. -/
theorem sel_at {α : Type} (i : grid0.Coords) (v7 : Vec Ideal S8x1 .i32) (a z : S8x65536.Idx → α) (r : Fin 8)
    (j : Fin 65536) :
    select (k0_pay4 (F := Ideal) i v7) a z (ix2 r j)
      = if blkb (v7 (ix2 r 0)) (i 1).val j then a (ix2 r j) else z (ix2 r j) := by
  rw [select_apply, pay4_at]
  rfl

/-- The masked target sample at row r, column j. -/
theorem pay5_at (i : grid0.Coords) (v7 : Vec Ideal S8x1 .i32) (v11 : Vec Ideal S8x65536 .f32) (r : Fin 8)
    (j : Fin 65536) :
    k0_pay5 (F := Ideal) i v7 v11 (ix2 r j) = tmK (blkb (v7 (ix2 r 0)) (i 1).val) (fun j => v11 (ix2 r j)) j := by
  unfold k0_pay5 tmK
  refine (sel_at i v7 _ _ r j).trans ?_
  exact if_congr Iff.rfl rfl zero_word

/-! ## The row sums, kept as columns -/

/-- A sum along the rows of a [8, 65536] array from the zero word, kept as a column, read at row r. -/
theorem col_at (src : FVec Ideal S8x65536 .f32) (r : Fin 8) (u : Fin 1) :
    shapeCast S8x1 (multiReduction .add [1] S8 src 0x00000000#32 Gen.reduces_S8x65536_S8 (.inl rfl) rfl)
        Gen.shapeCasts_S8_S8x1 (ix2 r u)
      = ∑ j : Fin 65536, src (ix2 r j) :=
  (Cert.LayoutKeepdims.shapeCast_a_a1_apply _ _ r u).trans
    (Idealize.ShloMosaic.RowSum.rowSum_apply src _ _ rfl r)

section Cols

variable (i : grid0.Coords) (v7 : Vec Ideal S8x1 .i32) (v11 : Vec Ideal S8x65536 .f32) (r : Fin 8) (u : Fin 1)

/-- Column T: the masked target's square sum over the block's samples. -/
theorem pay6_at :
    k0_pay6 (F := Ideal) i v7 v11 (ix2 r u) = TK (blkb (v7 (ix2 r 0)) (i 1).val) (fun j => v11 (ix2 r j)) := by
  unfold k0_pay6 TK
  refine (col_at _ r u).trans (Finset.sum_congr rfl fun j _ => ?_)
  rw [mulf_apply, pay5_at]

/-- A column d: the masked target's product sum with an estimate block. -/
theorem dcol_at (e : Vec Ideal S8x65536 .f32) :
    shapeCast S8x1 (multiReduction .add [1] S8 (mulf (F := Ideal) (k0_pay5 (F := Ideal) i v7 v11) e) 0x00000000#32
        Gen.reduces_S8x65536_S8 (.inl rfl) rfl) Gen.shapeCasts_S8_S8x1 (ix2 r u)
      = dK (blkb (v7 (ix2 r 0)) (i 1).val) (fun j => v11 (ix2 r j)) (fun j => e (ix2 r j)) := by
  unfold dK
  refine (col_at _ r u).trans (Finset.sum_congr rfl fun j _ => ?_)
  rw [mulf_apply, pay5_at]

/-- A column E: an estimate block's masked square sum; the squares and the zeros are given at the row's indices. -/
theorem ecol_at (x : Vec Ideal S8x65536 .f32) (sq z : FVec Ideal S8x65536 .f32)
    (hsq : ∀ j : Fin 65536, sq (ix2 r j) = x (ix2 r j) * x (ix2 r j)) (hz : ∀ j : Fin 65536, z (ix2 r j) = 0) :
    shapeCast S8x1 (multiReduction .add [1] S8 (select (k0_pay4 (F := Ideal) i v7) sq z) 0x00000000#32
        Gen.reduces_S8x65536_S8 (.inl rfl) rfl) Gen.shapeCasts_S8_S8x1 (ix2 r u)
      = eK (blkb (v7 (ix2 r 0)) (i 1).val) (fun j => x (ix2 r j)) := by
  unfold eK
  refine (col_at _ r u).trans (Finset.sum_congr rfl fun j _ => ?_)
  rw [sel_at, hsq, hz]

end Cols

/-! ## The two concatenations read at an index -/

/-- Seven columns side by side: column k of the result is the k-th piece. -/
theorem cat7_at (p0 p1 p2 p3 p4 p5 p6 : FVec Ideal S8x1 .f32) (r : Fin 8) (k : Fin 7) :
    concatenate S8x7 1 [⟨S8x1, p0⟩, ⟨S8x1, p1⟩, ⟨S8x1, p2⟩, ⟨S8x1, p3⟩, ⟨S8x1, p4⟩, ⟨S8x1, p5⟩, ⟨S8x1, p6⟩]
        Gen.concatenates_S8x1_S8x1_S8x1_S8x1_S8x1_S8x1_S8x1_S8x7_d1 (ix2 r k)
      = (![p0, p1, p2, p3, p4, p5, p6] k) (ix2 r 0) := by
  have hi : ∀ (n : Fin 7) (b : Fin S8x1.rank), b.cast (rfl : S8x1.rank = S8x7.rank) ≠ (1 : Fin S8x7.rank) →
      ((ix2 r (0 : Fin 1) : S8x1.Idx) b).val = ((ix2 r n : S8x7.Idx) (b.cast rfl)).val := fun n b hb =>
    match b, hb with
    | ⟨0, _⟩, _ => rfl
    | ⟨1, _⟩, hb => absurd rfl hb
  let xs : List ((s : Shape) × (s.Idx → Ideal .f32)) :=
    [⟨S8x1, p0⟩, ⟨S8x1, p1⟩, ⟨S8x1, p2⟩, ⟨S8x1, p3⟩, ⟨S8x1, p4⟩, ⟨S8x1, p5⟩, ⟨S8x1, p6⟩]
  obtain ⟨k, hk⟩ := k
  interval_cases k
  · exact concatenate_apply_piece 1 xs _ (ix2 r ⟨0, hk⟩) 0 (by show (0 : ℕ) < 7; omega) S8x1 p0 rfl rfl 0 rfl (ix2 r 0) (hi _) rfl
  · exact concatenate_apply_piece 1 xs _ (ix2 r ⟨1, hk⟩) 1 (by show (1 : ℕ) < 7; omega) S8x1 p1 rfl rfl 1 rfl (ix2 r 0) (hi _) rfl
  · exact concatenate_apply_piece 1 xs _ (ix2 r ⟨2, hk⟩) 2 (by show (2 : ℕ) < 7; omega) S8x1 p2 rfl rfl 2 rfl (ix2 r 0) (hi _) rfl
  · exact concatenate_apply_piece 1 xs _ (ix2 r ⟨3, hk⟩) 3 (by show (3 : ℕ) < 7; omega) S8x1 p3 rfl rfl 3 rfl (ix2 r 0) (hi _) rfl
  · exact concatenate_apply_piece 1 xs _ (ix2 r ⟨4, hk⟩) 4 (by show (4 : ℕ) < 7; omega) S8x1 p4 rfl rfl 4 rfl (ix2 r 0) (hi _) rfl
  · exact concatenate_apply_piece 1 xs _ (ix2 r ⟨5, hk⟩) 5 (by show (5 : ℕ) < 7; omega) S8x1 p5 rfl rfl 5 rfl (ix2 r 0) (hi _) rfl
  · exact concatenate_apply_piece 1 xs _ (ix2 r ⟨6, hk⟩) 6 (by show (6 : ℕ) < 7; omega) S8x1 p6 rfl rfl 6 rfl (ix2 r 0) (hi _) rfl

/-- Seven columns then 121 zero columns: column k of the result is column k of the first piece for k < 7, else 0. -/
theorem cat128_at (p : FVec Ideal S8x7 .f32) (z : FVec Ideal S8x121 .f32) (r : Fin 8)
    (hz : ∀ m : Fin 121, z (ix2 r m) = 0) (k : Fin 128) :
    concatenate S8x128 1 [⟨S8x7, p⟩, ⟨S8x121, z⟩] Gen.concatenates_S8x7_S8x121_S8x128_d1 (ix2 r k)
      = if h : k.val < 7 then p (ix2 r ⟨k.val, h⟩) else 0 := by
  split
  · next h =>
    exact concatenate_pair_apply_left 1 p z _ (ix2 r k) rfl (ix2 r ⟨k.val, h⟩) fun b =>
      match b with
      | ⟨0, _⟩ => rfl
      | ⟨1, _⟩ => rfl
  · next h =>
    refine (concatenate_pair_apply_right 1 p z _ (ix2 r k) rfl rfl (ix2 r ⟨k.val - 7, by omega⟩) (fun b hb => ?_) ?_).trans
      (hz _)
    · match b, hb with
      | ⟨0, _⟩, _ => rfl
      | ⟨1, _⟩, hb => exact absurd rfl hb
    · show k.val - 7 + 7 = k.val
      omega

/-! ## What one grid point adds to an accumulator row -/

theorem pay1_at (i : grid0.Coords) (v7 : Vec Ideal S8x1 .i32) (v11 v12 v13 v14 : Vec Ideal S8x65536 .f32)
    (acc : Vec Ideal S8x128 .f32) (r : Fin 8) (k : Fin 128) :
    k0_pay1 (F := Ideal) (k0_pay4 i v7) v14 (k0_pay6 i v7 v11) (k0_pay7 i v7 v11 v12) (k0_pay8 i v7 v11 v13)
        (k0_pay9 i v7 v11 v14) (k0_pay10 i v7 v12) (k0_pay11 v13) k0_pay12 acc (ix2 r k)
      = acc (ix2 r k) + Cert.Sisdr.partial7 (Cert.Sisdr.blkb (v7 (ix2 r 0)) (i 1).val) (fun j => v11 (ix2 r j))
          (fun j => v12 (ix2 r j)) (fun j => v13 (ix2 r j)) (fun j => v14 (ix2 r j)) k.val := by
  unfold k0_pay1
  refine (congrFun (shapeCast_self _ _) (ix2 r k)).trans ?_
  refine (addf_apply _ _ _).trans (congrArg (acc (ix2 r k) + ·) ?_)
  refine (cat128_at _ _ r (fun m => zero_word) k).trans ?_
  obtain ⟨k, hk⟩ := k
  dsimp only
  by_cases h : k < 7
  · rw [dif_pos h, cat7_at]
    interval_cases k
    · exact pay6_at i v7 v11 r 0
    · exact dcol_at i v7 v11 r 0 v12
    · exact dcol_at i v7 v11 r 0 v13
    · exact dcol_at i v7 v11 r 0 v14
    · exact ecol_at i v7 r 0 v12 _ _ (fun _ => rfl) (fun _ => zero_word)
    · exact ecol_at i v7 r 0 v13 _ _ (fun _ => rfl) (fun _ => zero_word)
    · exact ecol_at i v7 r 0 v14 _ _ (fun _ => rfl) (fun _ => zero_word)
  · rw [dif_neg h]
    obtain ⟨m, rfl⟩ : ∃ m, k = m + 7 := ⟨k - 7, by omega⟩
    rfl

end Cert.Sisdr.Pay

end
-- ==== Proof.Spec3.lean ====
/-
  The kernel's quotient as a function of the three row sums it reads back from the [64, 7] array of sums:
  with T the masked target's square sum, d its product sum with one estimate and E that estimate's masked square
  sum, the quotient is  |d| · rsqrt T  over  √(max (E − d·d / T) 0) + ε. The specification's `qK` is this function of
  `TK`, `dK`, `eK`, by unfolding.
-/
import proofs.«175789_j74741020885129_2_alg».proof.Proof.Spec

noncomputable section

namespace Cert.Sisdr

open Idealize.ShloMosaic

def qOfSums (T d E : EReal) : EReal :=
  Ideal.div (max d (-d) * Ideal.rsqrt T) (Ideal.sqrt (max (E - Ideal.div (d * d) T) 0) + eps)

theorem qK_eq_qOfSums {ι : Type} [Fintype ι] (b : ι → Prop) [DecidablePred b] (t e : ι → EReal) :
    qK b t e eps = qOfSums (TK b t) (dK b t e) (eK b e) := rfl

/-- The kernel's scalar from the array of sums `S` (column 0 the target's square sum, 1–3 the three product sums,
    4–6 the three estimates' square sums). -/
def resultOfSums (S : Fin 64 → Fin 7 → EReal) : EReal :=
  result (fun r => qOfSums (S r 0) (S r 1) (S r 4)) (fun r => qOfSums (S r 0) (S r 2) (S r 5))
    (fun r => qOfSums (S r 0) (S r 3) (S r 6))

end Cert.Sisdr

end
-- ==== Proof.KI.Value.lean ====
/-
  The array of sums the kernel leaves, at the ideal instance. A row R of the [64, 7] result holds the seven masked sums
  of row R of the inputs over all 131072 samples. The body reaches it in two steps: the even grid point of the row's
  block zeroes the accumulator and adds the seven partial sums over the first 65536 samples, the odd point adds the
  partial sums over the last 65536 and stores the first seven accumulator columns; a sum over 131072 consecutive
  samples is the sum over its first half plus the sum over its second half. The odd points' blocks tile the array.
-/
import proofs.«175789_j74741020885129_2_alg».proof.Proof.KI.Pieces
import proofs.«175789_j74741020885129_2_alg».proof.Proof.KI.Blocks
import proofs.«175789_j74741020885129_2_alg».proof.Proof.Pay
import proofs.«175789_j74741020885129_2_alg».proof.Proof.Spec3
import Idealize.ShloMosaic.Lib.Pipeline.Value
import Idealize.ShloMosaic.Lib.ValueIdx
import Mathlib.Algebra.BigOperators.Fin

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx
open Cert.Sisdr

variable (m : (ℓ : Loc nD τ sig) → Buf (Elt Ideal) ℓ) (ρ : Dev nD → PrngReg)

/-! ## The argument arrays -/

abbrev a0 (c : Dev nD) : S64x131072.Idx → EReal := m ((c : Thread nD τ).loc main_arg0)
abbrev a1 (c : Dev nD) : S64x131072.Idx → EReal := m ((c : Thread nD τ).loc main_arg1)
abbrev a2 (c : Dev nD) : S64x131072.Idx → EReal := m ((c : Thread nD τ).loc main_arg2)
abbrev a3 (c : Dev nD) : S64x131072.Idx → EReal := m ((c : Thread nD τ).loc main_arg3)
abbrev a4 (c : Dev nD) : S64.Idx → BitVec 32 := m ((c : Thread nD τ).loc main_arg4)

/-- Column `k` of row `R` of the result: the seven masked sums of the row, over all its samples. -/
def sumsRow (c : Dev nD) (R : Fin 64) (k : ℕ) : EReal :=
  partial7 (rowb (a4 m c) R) (row (a3 m c) R) (row (a0 m c) R) (row (a1 m c) R) (row (a2 m c) R) k

/-- Half `h` of a row of an array: its samples 65536·h … 65536·h + 65535. -/
abbrev hrow (y : (⟨2, ![64, 131072]⟩ : Shape).Idx → EReal) (R : Fin 64) (h : ℕ) (hh : h < 2) (j : Fin 65536) : EReal :=
  y (ix2 R (⟨65536 * h + j.val, by have := j.isLt; omega⟩ : Fin 131072))

/-- The same over half `h` of the row's samples (h = 0: the first 65536, h = 1: the last). -/
def halfRow (c : Dev nD) (R : Fin 64) (h : ℕ) (hh : h < 2) (k : ℕ) : EReal :=
  partial7 (blkb (a4 m c (ix1 R)) h) (hrow (a3 m c) R h hh) (hrow (a0 m c) R h hh) (hrow (a1 m c) R h hh) (hrow (a2 m c) R h hh) k

/-! ## A sum over the row's samples is the sum over its two halves -/

theorem sum_halves (f : Fin 131072 → EReal) (g0 g1 : Fin 65536 → EReal)
    (h0 : ∀ j : Fin 65536, g0 j = f ⟨65536 * 0 + j.val, by have := j.isLt; omega⟩)
    (h1 : ∀ j : Fin 65536, g1 j = f ⟨65536 * 1 + j.val, by have := j.isLt; omega⟩) :
    ∑ J, f J = ∑ j, g0 j + ∑ j, g1 j := by
  have e := Fin.sum_univ_add (M := EReal) (fun J : Fin (65536 + 65536) => f (Fin.cast (by norm_num) J))
  have e' : (∑ J : Fin (65536 + 65536), f (Fin.cast (by norm_num) J)) = ∑ J : Fin 131072, f J :=
    Fintype.sum_equiv (finCongr (by norm_num)) _ _ (fun _ => rfl)
  rw [← e', e]
  refine congrArg₂ (· + ·) (Finset.sum_congr rfl fun j _ => ?_) (Finset.sum_congr rfl fun j _ => ?_)
  · rw [h0]; exact congrArg f (Fin.ext (by show j.val = 65536 * 0 + j.val; omega))
  · rw [h1]; exact congrArg f (Fin.ext (by show 65536 + j.val = 65536 * 1 + j.val; omega))

/-- The valid-sample predicate of a half is the row's, at the half's samples. -/
theorem blkb_iff (L : BitVec 32) (h : ℕ) (j : Fin 65536) : blkb L h j ↔ mbit L (65536 * h + j.val) = 1#1 := by
  unfold blkb; rw [Nat.mul_comm]

section Halves

variable (len : (⟨1, ![64]⟩ : Shape).Idx → BitVec 32) (tg x : (⟨2, ![64, 131072]⟩ : Shape).Idx → EReal) (R : Fin 64)

theorem TK_halves :
    TK (blkb (len (ix1 R)) 0) (hrow tg R 0 (by decide)) + TK (blkb (len (ix1 R)) 1) (hrow tg R 1 (by decide))
      = TK (rowb len R) (row tg R) := by
  unfold TK
  refine (sum_halves _ _ _ (fun j => ?_) (fun j => ?_)).symm <;>
    (simp only [tmK, rowb, row, blkb_iff, hrow]; first | rfl | (split_ifs <;> rfl))

theorem dK_halves :
    dK (blkb (len (ix1 R)) 0) (hrow tg R 0 (by decide)) (hrow x R 0 (by decide))
        + dK (blkb (len (ix1 R)) 1) (hrow tg R 1 (by decide)) (hrow x R 1 (by decide))
      = dK (rowb len R) (row tg R) (row x R) := by
  unfold dK
  refine (sum_halves _ _ _ (fun j => ?_) (fun j => ?_)).symm <;>
    (simp only [tmK, rowb, row, blkb_iff, hrow]; first | rfl | (split_ifs <;> rfl))

theorem eK_halves :
    eK (blkb (len (ix1 R)) 0) (hrow x R 0 (by decide)) + eK (blkb (len (ix1 R)) 1) (hrow x R 1 (by decide))
      = eK (rowb len R) (row x R) := by
  unfold eK
  refine (sum_halves _ _ _ (fun j => ?_) (fun j => ?_)).symm <;>
    (simp only [rowb, row, blkb_iff, hrow]; first | rfl | (split_ifs <;> rfl))

end Halves

/-- The seven sums of a row are those of its first half plus those of its second. -/
theorem halves_add (c : Dev nD) (R : Fin 64) (k : ℕ) :
    halfRow m c R 0 (by decide) k + halfRow m c R 1 (by decide) k = sumsRow m c R k := by
  unfold halfRow sumsRow
  match k with
  | 0 => exact TK_halves (a4 m c) (a3 m c) R
  | 1 => exact dK_halves (a4 m c) (a3 m c) (a0 m c) R
  | 2 => exact dK_halves (a4 m c) (a3 m c) (a1 m c) R
  | 3 => exact dK_halves (a4 m c) (a3 m c) (a2 m c) R
  | 4 => exact eK_halves (a4 m c) (a0 m c) R
  | 5 => exact eK_halves (a4 m c) (a1 m c) R
  | 6 => exact eK_halves (a4 m c) (a2 m c) R
  | k + 7 => exact zero_add (0 : EReal)

/-! ## One point's update, read at an index -/

/-- The second grid coordinate of point `t` is its parity. -/
theorem coord1 : ∀ t : Fin cfg0.N, ((grid0.coords t) 1).val = t.val % 2 :=
  (by decide +kernel : ∀ t : Fin grid0.N, ((grid0.coords t) 1).val = t.val % 2)

/-- Row `r`, column `k` of the accumulator after point `t`'s update of `acc`: what it held plus the point's half of
    the row's sums (zero beyond the seventh column). -/
theorem upd_at (c : Dev nD) (t : Fin cfg0.N) (acc : Vec Ideal S8x128 .f32) (r : Fin 8) (k : Fin 128) :
    upd (grid0.coords t) (iblk m c 0 t) (iblk m c 1 t) (iblk m c 2 t) (iblk m c 3 t) (iblk m c 4 t) acc (ix2 r k)
      = acc (ix2 r k) + halfRow m c (grow t r) (t.val % 2) (Nat.mod_lt _ (by decide)) k.val := by
  unfold upd
  refine (Pay.pay1_at (grid0.coords t) (iblk m c 0 t) (iblk m c 1 t) (iblk m c 2 t) (iblk m c 3 t) (iblk m c 4 t) acc r k).trans ?_
  unfold halfRow
  simp only [iblk0_at, iblk1_at, iblk2_at, iblk3_at, iblk4_at, coord1]
  rfl

theorem halfRow_of_eq (c : Dev nD) (R : Fin 64) {h h' : ℕ} (hh : h < 2) (hh' : h' < 2) (e : h = h') (k : ℕ) :
    halfRow m c R h hh k = halfRow m c R h' hh' k := by subst e; rfl

/-! ## Two consecutive points -/

/-- After an even point the accumulator row holds the first half's sums. -/
theorem scratch_even (c : Dev nD) (t : Fin cfg0.N) (h0 : t.val % 2 = 0) (r : Fin 8) (k : Fin 128) :
    (outsAt0 m c t.val t.isLt).2 (ix2 r k) = halfRow m c (grow t r) 0 (by decide) k.val := by
  rw [outsAt0_A m c t h0 (by omega)]
  dsimp only
  rw [soutA_eq]
  refine (upd_at m c t _ r k).trans ?_
  rw [Pay.pay3_at, zero_add]
  exact halfRow_of_eq m c _ _ _ h0 _

/-- At an odd point the output block's row holds the whole row's sums. -/
theorem out_odd (c : Dev nD) (t : Fin cfg0.N) (h1 : t.val % 2 = 1) (r : Fin 8) (k : Fin 7) :
    (outsAt0 m c t.val t.isLt).1 (ix2 r k) = sumsRow m c (grow t r) k.val := by
  have hN : cfg0.N = 16 := N_0
  have htl : t.val < 16 := lt_of_lt_of_eq t.isLt hN
  rw [outsAt0_B m c t (by omega) h1]
  dsimp only
  rw [outB_eq]
  refine (Pay.pay2_at _ r k).trans ?_
  refine (upd_at m c t _ r ⟨k.val, by have := k.isLt; omega⟩).trans ?_
  have hp := scratch_even m c ⟨t.val - 1, by omega⟩ (by show (t.val - 1) % 2 = 0; omega) r ⟨k.val, by have := k.isLt; omega⟩
  have hg : grow ⟨t.val - 1, by omega⟩ r = grow t r := Fin.ext (by simp only [grow_val]; omega)
  rw [hg] at hp
  refine (congrArg (· + _) hp).trans ?_
  rw [halfRow_of_eq m c (grow t r) _ (by decide : 1 < 2) h1]
  exact halves_add m c (grow t r) k.val

/-! ## The write-back, the cover, the array -/

/-- The array of sums. -/
def sumsG (c : Dev nD) : S64x7.Idx → EReal := fun i => sumsRow m c (i 0 : Fin 64) (i 1).val

theorem idx_facts5 : ∀ t : Fin cfg0.N, win0_5.index t (0 : Fin 2) = t.val / 2 ∧ win0_5.index t (1 : Fin 2) = 0 :=
  (by decide +kernel : ∀ t : Fin grid0.N, win0_5.index t (0 : Fin 2) = t.val / 2 ∧ win0_5.index t (1 : Fin 2) = 0)

/-- What an odd point writes back is its block of the array of sums. -/
theorem flushed_eq (c : Dev nD) (t : Fin cfg0.N) (hf : (cfg0.win 5).flush t = true) :
    (dats m 0 c).flushed 5 t = ((cfg0.win 5).blk t).view.read (Elt Ideal) (sumsG m c) := by
  have h1 : t.val % 2 = 1 := (flush0_5 t).mp hf
  show (cfg0.win 5).cut (grid0.coords t) ((dats m 0 c).after 5 t) = _
  rw [after0_5]
  funext j
  obtain ⟨r, k, rfl⟩ : ∃ (r : Fin 8) (k : Fin 7), j = ix2 r k := ⟨j 0, j 1, eq_ix2 j⟩
  show (outsAt0 m c t.val t.isLt).1 (ix2 r k) = sumsG m c (((cfg0.win 5).blk t).view.emb (ix2 r k))
  rw [out_odd m c t h1 r k]
  unfold sumsG
  obtain ⟨e0, e1⟩ := idx_facts5 t
  refine congrArg₂ (sumsRow m c) (Fin.ext ?_) ?_
  · show (grow t r).val = win0_5.index t (0 : Fin 2) * 8 + 1 * r.val
    rw [e0, grow_val]; omega
  · show k.val = win0_5.index t (1 : Fin 2) * 7 + 1 * k.val
    rw [e1]; omega

theorem mem_blk5 (t : Fin cfg0.N) (i : S64x7.Idx) :
    i ∈ ((cfg0.win 5).blk t).view.set ↔ ∀ a : Fin 2, win0_5.index t a * S8x7.size a ≤ (i a).val ∧ (i a).val < win0_5.index t a * S8x7.size a + S8x7.size a := by
  show i ∈ ((View.whole main_v1).slice (win0_5.rect t)).set ↔ _
  rw [View.set_slice_whole, Rect.mem_set_unit]
  exact Iff.rfl

/-- The odd points' blocks tile the array, so it ends holding the array of sums. -/
theorem final5 (c : Dev nD) : (dats m 0 c).arrAt 5 cfg0.N = sumsG m c :=
  (dats m 0 c).arrAt_eq_of_cover 5 (sumsG m c) (flushed_eq m c) fun i => by
    have hi0 : (i 0).val < 64 := (i 0).isLt
    have hi1 : (i 1).val < 7 := (i 1).isLt
    have hN : cfg0.N = 16 := N_0
    have hlt : 2 * ((i 0).val / 8) + 1 < cfg0.N := by rw [hN]; omega
    refine ⟨⟨2 * ((i 0).val / 8) + 1, hlt⟩, (flush0_5 _).mpr (by show (2 * ((i 0).val / 8) + 1) % 2 = 1; omega), ?_⟩
    rw [mem_blk5]
    obtain ⟨e0, e1⟩ := idx_facts5 ⟨2 * ((i 0).val / 8) + 1, hlt⟩
    intro a
    match a with
    | ⟨0, _⟩ =>
      show win0_5.index ⟨2 * ((i 0).val / 8) + 1, hlt⟩ (0 : Fin 2) * 8 ≤ (i 0).val ∧ (i 0).val < win0_5.index ⟨2 * ((i 0).val / 8) + 1, hlt⟩ (0 : Fin 2) * 8 + 8
      rw [e0]; dsimp only; omega
    | ⟨1, _⟩ =>
      show win0_5.index ⟨2 * ((i 0).val / 8) + 1, hlt⟩ (1 : Fin 2) * 7 ≤ (i 1).val ∧ (i 1).val < win0_5.index ⟨2 * ((i 0).val / 8) + 1, hlt⟩ (1 : Fin 2) * 7 + 7
      rw [e1]; omega

end Cert.KernelIdeal.Fr

end
-- ==== Proof.KTail.lean ====
/-
  The kernel program's host tail read as a number: after the operations that follow the custom call, the result
  buffer holds the specification's `resultOfSums` of the [64, 7] array of row sums.

  The tail is first named as one pure function of the array (`tailTerm`): each of the seven columns is the [64, 1]
  block at offset (0, c) with its unit axis dropped (`col`); one track's level is the same function `trackTerm` of
  its columns T, d, E — columns (0, 1, 4), (0, 2, 5), (0, 3, 6) for the three tracks —; the three levels are combined
  (`combTerm`), summed over the 64 rows from zero and divided by 64. The operations' composed term at the result
  buffer is this function of the array at the custom call's result buffer (`after_eq`).

  Then the function is read at an index. A column at row r is the array at (r, c): position r·1 + 0 of the block is
  position r of the column. Every other operation is pointwise, a repeated word reads that word, so a track at row r
  is 20·(log (q + ε)·(1/ln 10)) of q = |d|·rsqrt T / (√(max (E − d·d/T) 0) + ε) at the row's three sums — `sdr` of
  `qOfSums`. The sum over the rank-1 index set is the sum over its one coordinate, and the quotient by 64 is `result`.
-/
import proofs.«175789_j74741020885129_2_alg».proof.Proof.Spec3
import proofs.«175789_j74741020885129_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws

noncomputable section

namespace Cert.Sisdr.KTail

open Cert.KernelIdeal Cert.KernelIdeal.Gen Idealize.ShloMosaic Idealize.ShloMosaic.ValueIdx Idealize.ShloMosaic.StableHlo

variable [Cert.KernelIdeal.Facts]

/-- The [64, 7] array of row sums, a [64] column, and a scalar, at the ideal values. -/
abbrev A7 : Type := FVec Ideal S64x7 .f32
abbrev A1 : Type := FVec Ideal S64 .f32
abbrev A0 : Type := FVec Ideal S_ .f32

/-! ## The tail as one pure function of the array of sums -/

/-- Column `c` of the array: the [64, 1] block at offset (0, c), its unit axis dropped. -/
def col (c : Nat) (h : S64x7.Slices ![0, c] S64x1) (S : A7) : A1 :=
  shapeCast S64 (extractStridedSlice S64x1 ![0, c] S h) shapeCasts_S64x1_S64

/-- A scalar word repeated over the 64 rows. -/
def splat (w : BitVec 32) : A1 := broadcastInDim S64 ![] bcast_S_S64 (constant (F := Ideal) S_ .f32 w)

/-- One track's level from its three columns T, d, E:
    20·(log (|d|·rsqrt T / (√(max (E − d·d/T) 0) + ε) + ε)·(1/ln 10)), constants as printed. -/
def trackTerm (T d E : A1) : A1 :=
  mulf (splat 0x41A00000#32)
    (mulf (Host.log (addf (Host.divf (mulf (Host.absf d) (Host.rsqrt T))
        (addf (Host.sqrt (maximumf (subf E (Host.divf (mulf d d) T)) (splat 0x00000000#32))) (splat 0x358637BD#32)))
      (splat 0x358637BD#32))) (splat 0x3EDE5BD9#32))

/-- The combined level −((0.8·track₁ + 0.1·track₂) + 0.1·track₃), the tracks on columns (0, 1, 4), (0, 2, 5), (0, 3, 6). -/
def combTerm (S : A7) : A1 :=
  Host.negf (addf (addf
      (mulf (splat 0x3F4CCCCD#32) (trackTerm (col 0 slices_S64x7_S64x1_0_0 S) (col 1 slices_S64x7_S64x1_0_1 S) (col 4 slices_S64x7_S64x1_0_4 S)))
      (mulf (splat 0x3DCCCCCD#32) (trackTerm (col 0 slices_S64x7_S64x1_0_0 S) (col 2 slices_S64x7_S64x1_0_2 S) (col 5 slices_S64x7_S64x1_0_5 S))))
      (mulf (splat 0x3DCCCCCD#32) (trackTerm (col 0 slices_S64x7_S64x1_0_0 S) (col 3 slices_S64x7_S64x1_0_3 S) (col 6 slices_S64x7_S64x1_0_6 S))))

/-- The whole tail: the combined level summed over the rows from zero, over 64. -/
def tailTerm (S : A7) : A0 :=
  Host.divf (Host.reduceAdd (combTerm S) (constant (F := Ideal) S_ .f32 0x00000000#32) reducesTo_S64_S_d0 h_S_)
    (constant (F := Ideal) S_ .f32 0x42800000#32)

set_option maxRecDepth 8192 in
set_option maxHeartbeats 51200000 in
/-- The operations' composed term at the result buffer is the tail of the array of sums. -/
theorem after_eq (W : Valuation τ sig (Elt Ideal)) :
    StableHlo.after (hostOps1 (F := Ideal)) W (Proc.devRef .tc main_v83) = tailTerm (W (Proc.devRef .tc main_v1)) := by
  after_results_simp
  rfl

/-! ## The pointwise operations read at an index (all by unfolding) -/

section At
variable {s : Shape} (a b : FVec Ideal s .f32) (i : s.Idx)

theorem mul_at : mulf a b i = a i * b i := rfl
theorem add_at : addf a b i = a i + b i := rfl
theorem sub_at : subf a b i = a i - b i := rfl
theorem max_at : maximumf a b i = max (a i) (b i) := rfl
theorem div_at : Host.divf a b i = Ideal.div (a i) (b i) := rfl
theorem log_at : Host.log a i = Ideal.log (a i) := rfl
theorem sqrt_at : Host.sqrt a i = Ideal.sqrt (a i) := rfl
theorem rsqrt_at : Host.rsqrt a i = Ideal.rsqrt (a i) := rfl
theorem abs_at : Host.absf a i = max (a i) (-(a i)) := rfl
theorem neg_at : Host.negf a i = -(a i) := rfl

end At

/-- A repeated word reads that word everywhere. -/
theorem splat_at (w : BitVec 32) (i : S64.Idx) : splat w i = Ideal.ofBits .f32 w := by
  unfold splat
  exact broadcastInDim_apply _ bcast_S_S64 _ i ix0 (fun a => a.elim0)

/-- Column `c` at row `r` is the array at (r, c): row-major position r·1 + 0 of the [64, 1] block is position r of
    the [64] column, and the block's (r, 0) is the array's (0 + r, c + 0). -/
theorem col_at (c : Nat) (hc : c < 7) (h : S64x7.Slices ![0, c] S64x1) (S : A7) (r : Fin 64) :
    col c h S (ix1 r) = S (ix2 r ⟨c, hc⟩) := by
  unfold col
  rw [shapeCast_apply _ shapeCasts_S64x1_S64 (ix1 r) (ix2 r (0 : Fin 1)) (by
    rw [Shape.rowMajor_val_two, Shape.rowMajor_val_one]
    show r.val * 1 + 0 = r.val
    omega)]
  exact extractStridedSlice_apply _ S h (ix2 r (0 : Fin 1)) (ix2 r ⟨c, hc⟩) (fun a => by
    match a with
    | ⟨0, _⟩ => exact (Nat.zero_add _).symm
    | ⟨1, _⟩ => rfl)

/-- One track at a row: the level of the quotient of its three sums there. -/
theorem track_at (T d E : A1) (i : S64.Idx) :
    trackTerm T d E i = sdr (qOfSums (T i) (d i) (E i)) := by
  simp only [trackTerm, mul_at, add_at, sub_at, max_at, div_at, log_at, sqrt_at, rsqrt_at, abs_at, splat_at,
    Ideal.ofBits_zero_f32, sdr, qOfSums, eps, cLog, c20]

/-- The sum over the rows from the zero initial value. -/
theorem reduce_at (y : A1) (i : S_.Idx) :
    Host.reduceAdd (F := Ideal) y (constant (F := Ideal) S_ .f32 0x00000000#32) reducesTo_S64_S_d0 h_S_ i
      = ∑ j : S64.Idx, y j := by
  simp only [Host.reduceAdd, Ideal.hostReduceAdd_def]
  rw [Ideal.hostReduceAdd_total reducesTo_S64_S_d0 (fun b => b.elim0) y _ i]
  show Ideal.ofBits .f32 0x00000000#32 + _ = _
  rw [Ideal.ofBits_zero_f32, zero_add]

/-- A rank-1 index of extent 64 is its coordinate. -/
def idxEquiv1 : S64.Idx ≃ Fin 64 where
  toFun j := j 0
  invFun a := ix1 a
  left_inv j := (eq_ix1 j).symm
  right_inv _ := rfl

/-- The combined level at a row. -/
theorem comb_at (S : A7) (r : Fin 64) :
    combTerm S (ix1 r)
      = comb (qOfSums (S (ix2 r 0)) (S (ix2 r 1)) (S (ix2 r 4))) (qOfSums (S (ix2 r 0)) (S (ix2 r 2)) (S (ix2 r 5)))
          (qOfSums (S (ix2 r 0)) (S (ix2 r 3)) (S (ix2 r 6))) := by
  simp only [combTerm, neg_at, add_at, mul_at, splat_at, track_at,
    col_at 0 (by decide), col_at 1 (by decide), col_at 2 (by decide), col_at 3 (by decide), col_at 4 (by decide),
    col_at 5 (by decide), col_at 6 (by decide), comb, c08, c01]
  rfl

/-- The tail read as a number: the specification's result of the array of sums. -/
theorem tail_at (S : A7) (i : S_.Idx) : tailTerm S i = resultOfSums (fun r k => S (ix2 r k)) := by
  unfold tailTerm
  rw [div_at, reduce_at]
  show Ideal.div (∑ j : S64.Idx, combTerm S j) c64 = Ideal.div (∑ r : Fin 64, comb _ _ _) c64
  refine congrArg (Ideal.div · c64) ?_
  refine Fintype.sum_equiv idxEquiv1 _ _ fun j => ?_
  rw [eq_ix1 j]
  exact comb_at S (j 0)

/-- After the tail's operations, from any contents of the buffers, the result buffer holds the specification's result of
    the array of sums in the custom call's result buffer. -/
theorem tail_eq (W : Valuation τ sig (Elt Ideal)) (i : S_.Idx) :
    StableHlo.after (hostOps1 (F := Ideal)) W (Proc.devRef .tc main_v83) i
      = Cert.Sisdr.resultOfSums (fun r k => W (Proc.devRef .tc main_v1) (ix2 r k)) :=
  (congrFun (after_eq W) i).trans (tail_at _ i)

end Cert.Sisdr.KTail

end
-- ==== Proof.KI.KRun.lean ====
/-
  The kernel program's run, read: the array of sums the region leaves goes through the host lines after it, which
  compute the tail of the three per-row quotients, so the result buffer ends at the specification's kernel scalar as a
  function of the five argument arrays, which end as launched.
-/
import proofs.«175789_j74741020885129_2_alg».proof.Proof.KI.Value
import proofs.«175789_j74741020885129_2_alg».proof.Proof.KTail

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx
open Cert.Sisdr

variable (m : (ℓ : Loc nD τ sig) → Buf (Elt Ideal) ℓ) (ρ : Dev nD → PrngReg)

/-- The tail of the array of sums is the kernel's scalar: column 0 is the target's square sum, columns 1–3 the product
    sums with the three estimates, columns 4–6 the estimates' square sums. -/
theorem result_of_sums (c : Dev nD) :
    resultOfSums (fun r k => sumsG m c (ix2 r k)) = kerResult (a0 m c) (a1 m c) (a2 m c) (a3 m c) (a4 m c) := by
  unfold resultOfSums kerResult
  simp only [qK_eq_qOfSums]
  rfl

/-- The result buffer after the lines that follow the region. -/
theorem tail_val (c : Dev nD) :
    Pipeline.afterTail₀ cfgs (dats m) 0 (V0 m) [hostOps1] c main_v83
      = ((fun _ => kerResult (a0 m c) (a1 m c) (a2 m c) (a3 m c) (a4 m c)) : S_.Idx → EReal) := by
  funext i
  unfold Pipeline.afterTail₀
  simp only [List.flatten_cons, List.flatten_nil, List.append_nil]
  have e : ∀ W : Valuation τ sig (Elt Ideal), W (Proc.devRef .tc main_v1) = sumsG m c →
      StableHlo.after (hostOps1 (F := Ideal)) W (Proc.devRef .tc main_v83) i
        = kerResult (a0 m c) (a1 m c) (a2 m c) (a3 m c) (a4 m c) := fun W hW => by
    rw [KTail.tail_eq, hW]; exact result_of_sums m c
  exact e _ ((Pipeline.withArrays_arr spec0 launch0.win.arr_inj c _ _ 5).trans (final5 m c))

/-- Every execution of the kernel program ends with its result at the kernel's scalar of the argument arrays, and the
    argument arrays as launched. -/
theorem run : θ_run defs (onTc (τ := τ) (main (F := Ideal))) ⟨m, fun _ => 0, ρ⟩ (fun r => ∀ c : Dev nD,
      r.2.mem ((c.tc : Thread nD τ).loc main_v83) = ((fun _ => kerResult (a0 m c) (a1 m c) (a2 m c) (a3 m c) (a4 m c)) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v83 (Pipeline.mem_restRefs_of main_v83 (by decide) (by decide))).trans (tail_val m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c)⟩) (run_main m ρ)

end Cert.KernelIdeal.Fr

end
-- ==== Proof.RefSide.lean ====
/-
  The reference program's result is the specification's `refResult`.

  Stage by stage at row r: the mask at sample J is the 0/1 value of "J lies before the row's length" (`mf`); the
  masked estimate and target are `eR` and `tR`; the two row sums Σ tR·eR and Σ tR·tR (each the zero initial value
  plus the sum over the row) and their quotient give the projection scale `aR`; a·tR is `sR`; the square roots of
  Σ s² and Σ (s − eR)² and their quotient give `qR`; 20·(log (q + ε)·(1/ln 10)) is `sdr`. The second and third
  tracks are the same stages at the other two estimates, so one lemma per stage serves all three. The three levels
  combine to `comb`, and the mean over the 64 rows is `result`: the sum over the rank-1 index set is the sum over
  its one coordinate. Every operand order in the program is the specification's, so nothing is commuted.
-/
import proofs.«175789_j74741020885129_2_alg».proof.Proof.Spec
import proofs.«175789_j74741020885129_2_alg».proof.Proof.Gen.ReferenceIdeal.Read
import Idealize.ShloMosaic.Lib.ValueIdx
import Idealize.ShloMosaic.PureOps.Ideal.Laws

noncomputable section

namespace Cert.Sisdr.Ref

open Idealize.ShloMosaic Idealize.ShloMosaic.ValueIdx Cert.ReferenceIdeal Cert.ReferenceIdeal.Read Cert.Sisdr

/-- A [64, 131072] float array at the ideal values. -/
abbrev A2 : Type := (⟨S64x131072, .f32⟩ : BufTy).Contents (Elt Ideal)
/-- The [64] array of length words. -/
abbrev L1 : Type := (⟨S64, .i32⟩ : BufTy).Contents (Elt Ideal)

/-! ## The second and third tracks are the first track's stages at the other estimates -/

theorem v60_eq (x1 x3 : A2) (x4 : L1) : val_main_v60 (F := Ideal) x1 x3 x4 = val_main_v33 (F := Ideal) x1 x3 x4 := rfl
theorem v87_eq (x2 x3 : A2) (x4 : L1) : val_main_v87 (F := Ideal) x2 x3 x4 = val_main_v33 (F := Ideal) x2 x3 x4 := rfl

/-! ## The mask: sample J of row r is 1 when J lies before the row's length, else 0 -/

theorem mask_eq (x4 : L1) (r : Fin 64) (J : Fin 131072) :
    val_main_v6 (F := Ideal) x4 (ix2 r J) = mf (rowb x4 r) J := by
  rw [val_main_v6_apply, val_main_v5_apply, val_main_v3_apply, val_main_v1_apply, val_main_v0_apply,
    val_main_v4_apply, val_main_v2_apply]
  have h2 : idx_main_v2 (idx_main_v4 (ix2 r J)) = ix1 r :=
    funext fun a => Fin.ext (by match a with | ⟨0, _⟩ => rfl)
  rw [h2]
  show (((IntOp.cmpi .slt (BitVec.ofNat 32 J.val) (x4 (ix1 r))).toNat : ℝ) : EReal)
    = if IntOp.cmpi .slt (BitVec.ofNat 32 J.val) (x4 (ix1 r)) = 1#1 then 1 else 0
  generalize IntOp.cmpi .slt (BitVec.ofNat 32 J.val) (x4 (ix1 r)) = b
  rcases BitVec.eq_zero_or_eq_one b with rfl | rfl
  · rw [if_neg (by decide)]
    show (((0 : ℕ) : ℝ) : EReal) = 0
    rw [Nat.cast_zero, EReal.coe_zero]
  · rw [if_pos rfl]
    show (((1 : ℕ) : ℝ) : EReal) = 1
    rw [Nat.cast_one, EReal.coe_one]

/-! ## One track, stage by stage, at row r (and sample J)

`x` is the track's estimate, `x3` the target, `x4` the lengths. -/

section Track

variable (x x3 : A2) (x4 : L1) (r : Fin 64)

/-- The masked estimate. -/
theorem e_eq (J : Fin 131072) :
    val_main_v7 (F := Ideal) x x4 (ix2 r J) = eR (rowb x4 r) (row x r) J := by
  rw [val_main_v7_apply, mask_eq]; rfl

/-- The masked target. -/
theorem t_eq (J : Fin 131072) :
    val_main_v8 (F := Ideal) x3 x4 (ix2 r J) = tR (rowb x4 r) (row x3 r) J := by
  rw [val_main_v8_apply, mask_eq]; rfl

/-- Σ tR·eR: the zero initial value plus the row's sum. -/
theorem dot_eq :
    val_main_v10 (F := Ideal) x x3 x4 (ix1 r)
      = ∑ k : Fin 131072, tR (rowb x4 r) (row x3 r) k * eR (rowb x4 r) (row x r) k := by
  rw [val_main_v10_apply, val_main_cst_apply, Ideal.ofBits_def, Ideal.ofBits_zero_f32, zero_add]
  refine Finset.sum_congr rfl fun k _ => ?_
  rw [show idx_main_v10 (ix1 r) k = ix2 r k from
    funext fun a => Fin.ext (by match a with | ⟨0, _⟩ => rfl | ⟨1, _⟩ => rfl)]
  rw [val_main_v9_apply, t_eq, e_eq]; rfl

/-- Σ tR·tR. -/
theorem tt_eq :
    val_main_v12 (F := Ideal) x3 x4 (ix1 r)
      = ∑ k : Fin 131072, tR (rowb x4 r) (row x3 r) k * tR (rowb x4 r) (row x3 r) k := by
  rw [val_main_v12_apply, val_main_cst_0_apply, Ideal.ofBits_def, Ideal.ofBits_zero_f32, zero_add]
  refine Finset.sum_congr rfl fun k _ => ?_
  rw [show idx_main_v12 (ix1 r) k = ix2 r k from
    funext fun a => Fin.ext (by match a with | ⟨0, _⟩ => rfl | ⟨1, _⟩ => rfl)]
  rw [val_main_v11_apply, t_eq]; rfl

/-- The projection scale. -/
theorem a_eq :
    val_main_v13 (F := Ideal) x x3 x4 (ix1 r) = aR (rowb x4 r) (row x3 r) (row x r) := by
  rw [val_main_v13_apply, dot_eq, tt_eq]; rfl

/-- The scale broadcast along the row. -/
theorem abc_eq (J : Fin 131072) :
    val_main_v15 (F := Ideal) x x3 x4 (ix2 r J) = aR (rowb x4 r) (row x3 r) (row x r) := by
  rw [val_main_v15_apply, val_main_v14_apply]
  rw [show idx_main_v14 (idx_main_v15 (ix2 r J)) = ix1 r from
    funext fun a => Fin.ext (by match a with | ⟨0, _⟩ => rfl)]
  exact a_eq x x3 x4 r

/-- The projected target s = a·tR. -/
theorem s_eq (J : Fin 131072) :
    val_main_v16 (F := Ideal) x x3 x4 (ix2 r J) = sR (rowb x4 r) (row x3 r) (row x r) J := by
  rw [val_main_v16_apply, abc_eq, t_eq]; rfl

/-- Σ s². -/
theorem ss_eq :
    val_main_v18 (F := Ideal) x x3 x4 (ix1 r)
      = ∑ k : Fin 131072, sR (rowb x4 r) (row x3 r) (row x r) k * sR (rowb x4 r) (row x3 r) (row x r) k := by
  rw [val_main_v18_apply, val_main_cst_1_apply, Ideal.ofBits_def, Ideal.ofBits_zero_f32, zero_add]
  refine Finset.sum_congr rfl fun k _ => ?_
  rw [show idx_main_v18 (ix1 r) k = ix2 r k from
    funext fun a => Fin.ext (by match a with | ⟨0, _⟩ => rfl | ⟨1, _⟩ => rfl)]
  rw [val_main_v17_apply, s_eq]; rfl

/-- Σ (s − eR)². -/
theorem nn_eq :
    val_main_v22 (F := Ideal) x x3 x4 (ix1 r)
      = ∑ k : Fin 131072, (sR (rowb x4 r) (row x3 r) (row x r) k - eR (rowb x4 r) (row x r) k)
          * (sR (rowb x4 r) (row x3 r) (row x r) k - eR (rowb x4 r) (row x r) k) := by
  rw [val_main_v22_apply, val_main_cst_2_apply, Ideal.ofBits_def, Ideal.ofBits_zero_f32, zero_add]
  refine Finset.sum_congr rfl fun k _ => ?_
  rw [show idx_main_v22 (ix1 r) k = ix2 r k from
    funext fun a => Fin.ext (by match a with | ⟨0, _⟩ => rfl | ⟨1, _⟩ => rfl)]
  rw [val_main_v21_apply, val_main_v20_apply, s_eq, e_eq]; rfl

/-- The row's quotient √(Σ s²) / (√(Σ (s − eR)²) + ε). -/
theorem q_eq :
    val_main_v26 (F := Ideal) x x3 x4 (ix1 r) = qR (rowb x4 r) (row x3 r) (row x r) eps := by
  rw [val_main_v26_apply, val_main_v19_apply, val_main_v25_apply, val_main_v23_apply, val_main_v24_apply,
    val_main_cst_3_apply, ss_eq, nn_eq]
  simp only [Ideal.hostDivf_def, Ideal.hostUnary_sqrt_def, Ideal.addf_def, Ideal.ofBits_def, qR, eps]

/-- The track's level 20·(log (q + ε)·(1/ln 10)). -/
theorem sdr_eq :
    val_main_v33 (F := Ideal) x x3 x4 (ix1 r) = sdr (qR (rowb x4 r) (row x3 r) (row x r) eps) := by
  rw [val_main_v33_apply, val_main_v32_apply, val_main_cst_6_apply, val_main_v31_apply, val_main_v30_apply,
    val_main_cst_5_apply, val_main_v29_apply, val_main_v28_apply, val_main_v27_apply, val_main_cst_4_apply, q_eq]
  simp only [Ideal.mulf_def, Ideal.hostUnary_log_def, Ideal.addf_def, Ideal.ofBits_def, sdr, eps, cLog, c20]

end Track

/-! ## The three tracks combined, and the mean over the rows -/

/-- Row r of the combined level −((0.8·sdr_s + 0.1·sdr_m) + 0.1·sdr_l). -/
theorem comb_eq (x0 x1 x2 x3 : A2) (x4 : L1) (r : Fin 64) :
    val_main_v96 (F := Ideal) x0 x1 x2 x3 x4 (ix1 r)
      = comb (qR (rowb x4 r) (row x3 r) (row x0 r) eps) (qR (rowb x4 r) (row x3 r) (row x1 r) eps)
          (qR (rowb x4 r) (row x3 r) (row x2 r) eps) := by
  rw [val_main_v96_apply, val_main_v95_apply, val_main_v92_apply, val_main_v89_apply, val_main_v91_apply,
    val_main_v94_apply, val_main_v88_apply, val_main_v90_apply, val_main_v93_apply, val_main_cst_23_apply,
    val_main_cst_24_apply, val_main_cst_25_apply, v60_eq, v87_eq, sdr_eq, sdr_eq, sdr_eq]
  rfl

/-- A rank-1 index of extent 64 is its coordinate. -/
def idxEquiv1 : S64.Idx ≃ Fin 64 where
  toFun j := j 0
  invFun a := ix1 a
  left_inv j := (eq_ix1 j).symm
  right_inv _ := rfl

theorem val_eq (x0 x1 x2 x3 : (⟨Cert.ReferenceIdeal.S64x131072, .f32⟩ : BufTy).Contents (Elt Ideal)) (x4 : (⟨Cert.ReferenceIdeal.S64, .i32⟩ : BufTy).Contents (Elt Ideal)) (i : Cert.ReferenceIdeal.S_.Idx) :
    Cert.ReferenceIdeal.Read.val_main_v98 (F := Ideal) x0 x1 x2 x3 x4 i = Cert.Sisdr.refResult x0 x1 x2 x3 x4 := by
  rw [val_main_v98_apply, val_main_v97_apply, val_main_cst_26_apply, val_main_cst_27_apply,
    Ideal.ofBits_def, Ideal.ofBits_zero_f32, zero_add]
  show Ideal.div (∑ j : S64.Idx, val_main_v96 (F := Ideal) x0 x1 x2 x3 x4 j) c64
    = Ideal.div (∑ r : Fin 64, comb (qR (rowb x4 r) (row x3 r) (row x0 r) eps) (qR (rowb x4 r) (row x3 r) (row x1 r) eps)
          (qR (rowb x4 r) (row x3 r) (row x2 r) eps)) c64
  refine congrArg (Ideal.div · c64) ?_
  refine Fintype.sum_equiv idxEquiv1 _ _ fun j => ?_
  rw [eq_ix1 j]
  exact comb_eq x0 x1 x2 x3 x4 (j 0)

end Cert.Sisdr.Ref

end
-- ==== Proof.RowLaw.lean ====
/-
  The row law: for finite samples and a positive real ε the kernel's masked SI-SDR quotient of one row equals
  the reference's, hence the two results agree.

  Lift the samples to reals; with u, v the masked target and estimate, T = Σ u², d = Σ u·v, E = Σ v².
  When T > 0 the projection scale a = d / T is real, Σ (a·u)² = d²/T and Σ (a·u − v)² = E − d²/T ≥ 0, so the
  kernel's max(·, 0) is the identity, √(d²/T) = |d| · (√T)⁻¹, and both quotients are the same real.
  When T = 0 every u i is 0, so d = 0: the kernel's numerator is 0 and its denominator +∞; the reference's
  projected samples all vanish, its numerator is 0 and its denominator √(Σ v²) + ε is a positive real.
  Both quotients are 0.
-/
import proofs.«175789_j74741020885129_2_alg».proof.Proof.Spec

noncomputable section

namespace Cert.Sisdr

open Idealize.ShloMosaic

/-! ## The constant ε is a positive real -/

/-- The word of ε is a normal pattern: 8796093 · 2⁻⁴³, about 10⁻⁶. -/
theorem eps_pos : ∃ r : ℝ, 0 < r ∧ eps = (r : EReal) := by
  refine ⟨(8796093 : ℝ) * (2 : ℝ) ^ (-43 : ℤ), by positivity, ?_⟩
  simp [eps, Ideal.ofBits, Ideal.ieee, -EReal.coe_mul]

/-! ## Coercion of finite sums, absolute value, a zero numerator -/

/-- A finite sum of coerced reals is the coerced real sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe_mul {ι : Type} [Fintype ι] (u v : ι → ℝ) :
    ∑ i, (u i : EReal) * (v i : EReal) = ((∑ i, u i * v i : ℝ) : EReal) := by
  rw [coe_sum]
  exact Finset.sum_congr rfl (fun i _ => (EReal.coe_mul _ _).symm)

/-- max x (−x) = |x| on a real. -/
theorem max_neg_coe (x : ℝ) : max (x : EReal) (-(x : EReal)) = ((|x| : ℝ) : EReal) := by
  rw [← EReal.coe_neg]
  rcases le_total 0 x with h | h
  · rw [abs_of_nonneg h, max_eq_left]
    exact_mod_cast (by linarith : -x ≤ x)
  · rw [abs_of_nonpos h, max_eq_right]
    exact_mod_cast (by linarith : x ≤ -x)

/-- A zero numerator over a nonzero denominator is zero. -/
theorem div_zero_left {y : EReal} (hy : y ≠ 0) : Ideal.div 0 y = 0 := by
  rw [Ideal.div, if_neg hy, zero_mul]

/-! ## The two sums of squares of the projection, over the reals -/

section RealSums

variable {ι : Type} [Fintype ι] (u v : ι → ℝ)

/-- Σ (a·u)² = d²/T for a = d/T, T = Σ u² ≠ 0. -/
theorem proj_sq (T d a : ℝ) (hT : ∑ i, u i * u i = T) (hT0 : T ≠ 0) (ha : a = d * (1 / T)) :
    ∑ i, (a * u i) * (a * u i) = d * d * (1 / T) := by
  have h : ∀ i, (a * u i) * (a * u i) = (a * a) * (u i * u i) := fun i => by ring
  simp_rw [h, ← Finset.mul_sum, hT, ha]
  field_simp

/-- Σ (a·u − v)² = E − d²/T for a = d/T, T = Σ u² ≠ 0, d = Σ u·v, E = Σ v². -/
theorem resid_sq (T d E a : ℝ) (hT : ∑ i, u i * u i = T) (hd : ∑ i, u i * v i = d)
    (hE : ∑ i, v i * v i = E) (hT0 : T ≠ 0) (ha : a = d * (1 / T)) :
    ∑ i, (a * u i - v i) * (a * u i - v i) = E - d * d * (1 / T) := by
  have h : ∀ i, (a * u i - v i) * (a * u i - v i)
      = (a * a) * (u i * u i) - (2 * a) * (u i * v i) + v i * v i := fun i => by ring
  simp_rw [h, Finset.sum_add_distrib, Finset.sum_sub_distrib, ← Finset.mul_sum, hT, hd, hE, ha]
  field_simp
  ring

end RealSums

/-! ## The two quotients as functions of the sums and of the masked samples -/

/-- The kernel's quotient as a function of its three sums. -/
def kForm (T d E ε : EReal) : EReal :=
  Ideal.div (max d (-d) * Ideal.rsqrt T) (Ideal.sqrt (max (E - Ideal.div (d * d) T) 0) + ε)

/-- The projection scale as a function of the masked samples. -/
def aForm {ι : Type} [Fintype ι] (u v : ι → EReal) : EReal :=
  Ideal.div (∑ i, u i * v i) (∑ i, u i * u i)

/-- The reference's quotient as a function of the masked samples. -/
def rForm {ι : Type} [Fintype ι] (u v : ι → EReal) (ε : EReal) : EReal :=
  Ideal.div (Ideal.sqrt (∑ i, (aForm u v * u i) * (aForm u v * u i)))
    (Ideal.sqrt (∑ i, (aForm u v * u i - v i) * (aForm u v * u i - v i)) + ε)

/-- The kernel's quotient when T > 0 and the radicand x = E − d²/T is nonnegative. -/
theorem kForm_pos (T d E r : ℝ) (hT : 0 < T) (hr : 0 < r) (hx : 0 ≤ E - d * d * (1 / T)) :
    kForm (T : EReal) (d : EReal) (E : EReal) (r : EReal)
      = ((|d| * (Real.sqrt T)⁻¹ * (1 / (Real.sqrt (E - d * d * (1 / T)) + r)) : ℝ) : EReal) := by
  have hden : Real.sqrt (E - d * d * (1 / T)) + r ≠ 0 :=
    ne_of_gt (add_pos_of_nonneg_of_pos (Real.sqrt_nonneg _) hr)
  have h1 : max (d : EReal) (-(d : EReal)) * Ideal.rsqrt (T : EReal)
      = ((|d| * (Real.sqrt T)⁻¹ : ℝ) : EReal) := by
    rw [max_neg_coe, Ideal.rsqrt_coe, if_neg (not_lt.mpr hT.le), if_neg hT.ne', EReal.coe_mul]
  have h2 : Ideal.div ((d : EReal) * (d : EReal)) (T : EReal) = ((d * d * (1 / T) : ℝ) : EReal) := by
    rw [Ideal.div_coe hT.ne', EReal.coe_mul, EReal.coe_mul]
  have h3 : Ideal.sqrt (max ((E : EReal) - ((d * d * (1 / T) : ℝ) : EReal)) 0)
      = ((Real.sqrt (E - d * d * (1 / T)) : ℝ) : EReal) := by
    rw [← EReal.coe_sub, max_eq_left (by exact_mod_cast hx), Ideal.sqrt_coe, if_neg (not_lt.mpr hx)]
  unfold kForm
  rw [h1, h2, h3, ← EReal.coe_add, Ideal.div_coe hden]
  exact (EReal.coe_mul _ _).symm

/-- The kernel's quotient when T = 0 (hence d = 0): 0 over +∞. -/
theorem kForm_zero (E r : ℝ) : kForm ((0 : ℝ) : EReal) ((0 : ℝ) : EReal) (E : EReal) (r : EReal) = 0 := by
  have h2 : Ideal.div ((0 : EReal) * 0) 0 = ⊥ := by
    rw [Ideal.div, if_pos rfl, if_neg (by simp)]
  unfold kForm
  rw [EReal.coe_zero, neg_zero, max_self, zero_mul, h2, EReal.coe_sub_bot, max_eq_left le_top,
    Ideal.sqrt_top, EReal.top_add_coe]
  exact div_zero_left EReal.top_ne_zero

section Core

variable {ι : Type} [Fintype ι] (u v : ι → ℝ) (r : ℝ)

/-- The reference's quotient when T > 0. -/
theorem rForm_pos (hr : 0 < r) (hT : 0 < ∑ i, u i * u i) :
    rForm (fun i => (u i : EReal)) (fun i => (v i : EReal)) (r : EReal)
      = ((|∑ i, u i * v i| * (Real.sqrt (∑ i, u i * u i))⁻¹
          * (1 / (Real.sqrt ((∑ i, v i * v i) - (∑ i, u i * v i) * (∑ i, u i * v i) * (1 / ∑ i, u i * u i)) + r)) : ℝ) : EReal) := by
  set T := ∑ i, u i * u i with hTdef
  set d := ∑ i, u i * v i with hddef
  set E := ∑ i, v i * v i with hEdef
  have hx : 0 ≤ E - d * d * (1 / T) := by
    rw [← resid_sq u v T d E (d * (1 / T)) rfl rfl rfl hT.ne' rfl]
    exact Finset.sum_nonneg (fun i _ => mul_self_nonneg _)
  have hden : Real.sqrt (E - d * d * (1 / T)) + r ≠ 0 :=
    ne_of_gt (add_pos_of_nonneg_of_pos (Real.sqrt_nonneg _) hr)
  have ha : aForm (fun i => (u i : EReal)) (fun i => (v i : EReal)) = ((d * (1 / T) : ℝ) : EReal) := by
    unfold aForm
    rw [sum_coe_mul, sum_coe_mul, Ideal.div_coe hT.ne', EReal.coe_mul]
  have hs1 : ∑ i, (((d * (1 / T) : ℝ) : EReal) * (u i : EReal)) * (((d * (1 / T) : ℝ) : EReal) * (u i : EReal))
      = ((d * d * (1 / T) : ℝ) : EReal) := by
    rw [← proj_sq u T d (d * (1 / T)) rfl hT.ne' rfl, coe_sum]
    exact Finset.sum_congr rfl (fun i _ => by simp only [EReal.coe_mul])
  have hs2 : ∑ i, (((d * (1 / T) : ℝ) : EReal) * (u i : EReal) - (v i : EReal))
        * (((d * (1 / T) : ℝ) : EReal) * (u i : EReal) - (v i : EReal))
      = ((E - d * d * (1 / T) : ℝ) : EReal) := by
    rw [← resid_sq u v T d E (d * (1 / T)) rfl rfl rfl hT.ne' rfl, coe_sum]
    exact Finset.sum_congr rfl (fun i _ => by simp only [EReal.coe_mul, EReal.coe_sub])
  have hsq : Real.sqrt (d * d * (1 / T)) = |d| * (Real.sqrt T)⁻¹ := by
    rw [Real.sqrt_mul (mul_self_nonneg d), Real.sqrt_mul_self_eq_abs, one_div, Real.sqrt_inv]
  unfold rForm
  simp only [ha]
  rw [hs1, hs2, Ideal.sqrt_coe, if_neg (not_lt.mpr (mul_nonneg (mul_self_nonneg d) (one_div_nonneg.mpr hT.le))),
    Ideal.sqrt_coe, if_neg (not_lt.mpr hx), ← EReal.coe_add, Ideal.div_coe hden, hsq]
  exact (EReal.coe_mul _ _).symm

/-- The reference's quotient when every masked target sample is 0: 0 over a positive real. -/
theorem rForm_zero (hr : 0 < r) :
    rForm (fun _ : ι => ((0 : ℝ) : EReal)) (fun i => (v i : EReal)) (r : EReal) = 0 := by
  have hs1 : ∀ a : EReal, ∑ _i : ι, (a * ((0 : ℝ) : EReal)) * (a * ((0 : ℝ) : EReal)) = 0 := by
    intro a; simp
  have hs2 : ∀ a : EReal, ∑ i, (a * ((0 : ℝ) : EReal) - (v i : EReal)) * (a * ((0 : ℝ) : EReal) - (v i : EReal))
      = ((∑ i, (0 - v i) * (0 - v i) : ℝ) : EReal) := by
    intro a
    rw [coe_sum]
    exact Finset.sum_congr rfl (fun i _ => by
      rw [EReal.coe_mul, EReal.coe_sub, EReal.coe_zero, mul_zero])
  have hE : 0 ≤ ∑ i, (0 - v i) * (0 - v i) := Finset.sum_nonneg (fun i _ => mul_self_nonneg _)
  have hden : Real.sqrt (∑ i, (0 - v i) * (0 - v i)) + r ≠ 0 :=
    ne_of_gt (add_pos_of_nonneg_of_pos (Real.sqrt_nonneg _) hr)
  have h0 : Ideal.sqrt (0 : EReal) = 0 := by
    rw [← EReal.coe_zero, Ideal.sqrt_coe, if_neg (lt_irrefl _), Real.sqrt_zero]
  unfold rForm
  rw [hs1, hs2, h0, Ideal.sqrt_coe, if_neg (not_lt.mpr hE), ← EReal.coe_add]
  exact div_zero_left (by exact_mod_cast hden)

/-- The two forms agree on real masked samples and a positive real ε. -/
theorem kForm_eq_rForm (hr : 0 < r) :
    kForm ((∑ i, u i * u i : ℝ) : EReal) ((∑ i, u i * v i : ℝ) : EReal) ((∑ i, v i * v i : ℝ) : EReal) (r : EReal)
      = rForm (fun i => (u i : EReal)) (fun i => (v i : EReal)) (r : EReal) := by
  have hT0 : 0 ≤ ∑ i, u i * u i := Finset.sum_nonneg (fun i _ => mul_self_nonneg _)
  rcases hT0.lt_or_eq with hT | hT
  · have hx : 0 ≤ (∑ i, v i * v i) - (∑ i, u i * v i) * (∑ i, u i * v i) * (1 / ∑ i, u i * u i) := by
      rw [← resid_sq u v _ _ _ ((∑ i, u i * v i) * (1 / ∑ i, u i * u i)) rfl rfl rfl hT.ne' rfl]
      exact Finset.sum_nonneg (fun i _ => mul_self_nonneg _)
    rw [kForm_pos _ _ _ _ hT hr hx, rForm_pos u v r hr hT]
  · have hu0 : ∀ i, u i = 0 := fun i =>
      mul_self_eq_zero.mp ((Finset.sum_eq_zero_iff_of_nonneg (fun i _ => mul_self_nonneg (u i))).mp hT.symm i
        (Finset.mem_univ i))
    have hu : u = fun _ => 0 := funext hu0
    subst hu
    simp only [zero_mul, Finset.sum_const_zero]
    rw [kForm_zero, rForm_zero v r hr]

end Core

/-! ## The row law -/

section Row

variable {ι : Type} [Fintype ι] (b : ι → Prop) [DecidablePred b]

/-- A real sample, zero outside the valid prefix. -/
def msk (t : ι → ℝ) (i : ι) : ℝ := if b i then t i else 0

theorem tmK_coe (t : ι → ℝ) (i : ι) : tmK b (fun j => (t j : EReal)) i = (msk b t i : EReal) := by
  unfold tmK msk; split_ifs <;> simp

theorem tR_coe (t : ι → ℝ) : tR b (fun j => (t j : EReal)) = fun i => (msk b t i : EReal) := by
  funext i; unfold tR mf msk; split_ifs <;> simp

theorem eR_coe (e : ι → ℝ) : eR b (fun j => (e j : EReal)) = fun i => (msk b e i : EReal) :=
  tR_coe b e

theorem TK_coe (t : ι → ℝ) : TK b (fun j => (t j : EReal)) = ((∑ i, msk b t i * msk b t i : ℝ) : EReal) := by
  unfold TK
  rw [coe_sum]
  exact Finset.sum_congr rfl (fun i _ => by rw [tmK_coe, EReal.coe_mul])

theorem dK_coe (t e : ι → ℝ) :
    dK b (fun j => (t j : EReal)) (fun j => (e j : EReal)) = ((∑ i, msk b t i * msk b e i : ℝ) : EReal) := by
  unfold dK
  rw [coe_sum]
  refine Finset.sum_congr rfl (fun i _ => ?_)
  unfold tmK msk; split_ifs <;> simp

theorem eK_coe (e : ι → ℝ) : eK b (fun j => (e j : EReal)) = ((∑ i, msk b e i * msk b e i : ℝ) : EReal) := by
  unfold eK
  rw [coe_sum]
  refine Finset.sum_congr rfl (fun i _ => ?_)
  unfold msk; split_ifs <;> simp

theorem qK_eq_qR_coe (t e : ι → ℝ) (r : ℝ) (hr : 0 < r) :
    qK b (fun j => (t j : EReal)) (fun j => (e j : EReal)) (r : EReal)
      = qR b (fun j => (t j : EReal)) (fun j => (e j : EReal)) (r : EReal) := by
  have hK : qK b (fun j => (t j : EReal)) (fun j => (e j : EReal)) (r : EReal)
      = kForm (TK b (fun j => (t j : EReal))) (dK b (fun j => (t j : EReal)) (fun j => (e j : EReal)))
          (eK b (fun j => (e j : EReal))) (r : EReal) := rfl
  have hR : qR b (fun j => (t j : EReal)) (fun j => (e j : EReal)) (r : EReal)
      = rForm (tR b (fun j => (t j : EReal))) (eR b (fun j => (e j : EReal))) (r : EReal) := rfl
  rw [hK, hR, TK_coe, dK_coe, eK_coe, tR_coe, eR_coe]
  exact kForm_eq_rForm (msk b t) (msk b e) r hr

/-- The kernel's and the reference's quotient of one row agree on finite samples. -/
theorem qK_eq_qR (t e : ι → EReal) (ε : EReal)
    (ht : ∀ i, t i ≠ ⊤ ∧ t i ≠ ⊥) (he : ∀ i, e i ≠ ⊤ ∧ e i ≠ ⊥) (hε : ∃ r : ℝ, 0 < r ∧ ε = (r : EReal)) :
    qK b t e ε = qR b t e ε := by
  obtain ⟨r, hr, rfl⟩ := hε
  have ht' : t = fun i => ((t i).toReal : EReal) :=
    funext fun i => (EReal.coe_toReal (ht i).1 (ht i).2).symm
  have he' : e = fun i => ((e i).toReal : EReal) :=
    funext fun i => (EReal.coe_toReal (he i).1 (he i).2).symm
  rw [ht', he']
  exact qK_eq_qR_coe b _ _ r hr

end Row

/-! ## The two results -/

theorem kerResult_eq_refResult (x0 x1 x2 tg : (⟨2, ![64, 131072]⟩ : Shape).Idx → EReal)
    (len : (⟨1, ![64]⟩ : Shape).Idx → BitVec 32)
    (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (h3 : ∀ i, tg i ≠ ⊤ ∧ tg i ≠ ⊥) :
    kerResult x0 x1 x2 tg len = refResult x0 x1 x2 tg len := by
  have key : ∀ (x : (⟨2, ![64, 131072]⟩ : Shape).Idx → EReal), (∀ i, x i ≠ ⊤ ∧ x i ≠ ⊥) →
      (fun r => qK (rowb len r) (row tg r) (row x r) eps) = (fun r => qR (rowb len r) (row tg r) (row x r) eps) :=
    fun x hx => funext fun r => qK_eq_qR (rowb len r) (row tg r) (row x r) eps (fun J => h3 _) (fun J => hx _) eps_pos
  unfold kerResult refResult
  rw [key x0 h0, key x1 h1, key x2 h2]

end Cert.Sisdr

end
-- ==== Proof.Finite.lean ====
/-
  The inputs are finite under the printed precondition.

  The precondition is the conjunction, over the four float arrays x, of  all (|x| < +∞)  — each a reduce by
  `and` of the comparison bits from the constant 1 — and the claim's hypothesis says the conjunction is the bit 1.
  A conjunction of bits is 1 exactly when both are; a reduce by `and` over all axes that is 1 met a 1 at every
  index; and the bit of  max x (−x) < ⊤  is 1 only for x a real number: at x = ⊤ and at x = ⊥ the maximum is ⊤,
  which is not below ⊤.
-/
import proofs.«175789_j74741020885129_2_alg».proof.Pre_finite_inputs
import proofs.«175789_j74741020885129_2_alg».proof.Proof.Gen.Pre_finite_inputs
import Idealize.ShloMosaic.Lib.ReduceAll
import Idealize.ShloMosaic.Lib.ValueIdx
import Idealize.ShloMosaic.PureOps.Ideal

noncomputable section

namespace Cert.Sisdr.Finite

open Idealize.ShloMosaic Idealize.ShloMosaic.ValueIdx
open Cert.Pre_finite_inputs

variable [Cert.Pre_finite_inputs.Facts]

/-- The rank-0 shape has one index. -/
instance : Subsingleton S_.Idx := ⟨fun a b => funext fun d => d.elim0⟩

/-- The printed word 0x7F800000 is +∞. -/
theorem inf_eq_top : Ideal.ofBits .f32 0x7F800000#32 = (⊤ : EReal) := by
  simp [Ideal.ofBits, Ideal.ieee]

/-- The bit of |x| < +∞ is 1 only at a real number. -/
theorem finite_of_bit (x : EReal) (h : Ideal.cmp .olt (max x (-x)) (Ideal.ofBits .f32 0x7F800000#32) = 1#1) :
    x ≠ ⊤ ∧ x ≠ ⊥ := by
  rw [inf_eq_top] at h
  unfold Ideal.cmp at h
  induction x using EReal.rec with
  | bot => simp at h
  | top => simp at h
  | coe r => exact ⟨EReal.coe_ne_top r, EReal.coe_ne_bot r⟩

/-- One array: if all of its comparison bits reduce to 1, every element is finite. -/
theorem finite_of_all (a : FVec Ideal S64x131072 .f32) (init : IVec S_ 1)
    (h : Host.reduce IntOp.andi
          (cmpf .olt (Host.absf a)
            (broadcastInDim S64x131072 ![] Facts.bcast_S_S64x131072 (constant S_ .f32 0x7F800000#32)))
          init Facts.reducesTo_S64x131072_S_d0_1 Facts.h_S_ ix0 = 1#1) (i : S64x131072.Idx) :
    a i ≠ ⊤ ∧ a i ≠ ⊥ := by
  have e := Host.reduce_andi_all _ init Facts.reducesTo_S64x131072_S_d0_1 Facts.h_S_ ix0 h i
  exact finite_of_bit (a i) e

theorem finite_of_pre (a0 a1 a2 a3 : FVec Ideal S64x131072 .f32) (a4 : IVec S64 32)
    (h : Cert.Pre_finite_inputs.fn (F := Ideal) a0 a1 a2 a3 a4 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥) ∧
      (∀ i, a3 i ≠ ⊤ ∧ a3 i ≠ ⊥) := by
  have e := congrFun h ix0
  dsimp only [Cert.Pre_finite_inputs.fn, Cert.Pre_finite_inputs.fn_part1, andi] at e
  rw [IntOp.andi_eq_one, IntOp.andi_eq_one, IntOp.andi_eq_one] at e
  obtain ⟨⟨⟨h0, h1⟩, h2⟩, h3⟩ := e
  exact ⟨finite_of_all a0 _ h0, finite_of_all a1 _ h1, finite_of_all a2 _ h2, finite_of_all a3 _ h3⟩

end Cert.Sisdr.Finite

end
-- ==== Proof.lean ====
/-
  Three SI-SDR tracks (short, medium, long estimates against one target, each row masked to its length), combined into
  one scalar: the kernel program against its jnp reference, on the extended reals.

  The kernel's pallas_call reduces each row of the four [64, 131072] arrays to seven masked sums — T = Σ t², the three
  products d = Σ t·e and the three energies E = Σ e² over the valid samples — accumulating two half-rows per row in a
  scratch block; the host lines after it form, per track,  |d| · rsqrt T  over  √(max (E − d²/T) 0) + ε.  The reference
  projects first: a = d / T, s = a·t, and forms  √(Σ s²)  over  √(Σ (s − e)²) + ε.  For finite inputs the two quotients
  agree row by row: where T > 0 both numerators are |d| / √T and both radicands are E − d²/T ≥ 0; where T = 0 every valid
  target sample is 0, so d = 0, both numerators vanish and both denominators are nonzero. From the quotient on, the two
  programs apply the same operations with the same constants (20·log₁₀(q + ε), the weights 0.8 / 0.1 / 0.1, the negated
  mean over the 64 rows).

  The frames: each kernel program terminates without a fault and leaves its arguments as launched, by the launch theorem
  for a region followed by host lines, over a body that is run once per parity of the grid point (the scratch is reset
  at even points, the output block stored at odd ones); the reference is host operations only. The idealization rewrote
  nothing, so there is nothing to preserve.
-/
import proofs.«175789_j74741020885129_2_alg».proof.Defs
import proofs.«175789_j74741020885129_2_alg».proof.Proof.Gen.Kernel
import proofs.«175789_j74741020885129_2_alg».proof.Proof.Gen.Kernel.Skeleton
import proofs.«175789_j74741020885129_2_alg».proof.Proof.Gen.Kernel.Launch
import proofs.«175789_j74741020885129_2_alg».proof.Proof.Gen.Kernel.Points
import proofs.«175789_j74741020885129_2_alg».proof.Proof.Gen.KernelIdeal
import proofs.«175789_j74741020885129_2_alg».proof.Proof.Gen.KernelIdeal.Skeleton
import proofs.«175789_j74741020885129_2_alg».proof.Proof.Gen.KernelIdeal.Launch
import proofs.«175789_j74741020885129_2_alg».proof.Proof.Gen.KernelIdeal.Points
import proofs.«175789_j74741020885129_2_alg».proof.Proof.Gen.ReferenceIdeal
import proofs.«175789_j74741020885129_2_alg».proof.Proof.Gen.Pre_finite_inputs
import proofs.«175789_j74741020885129_2_alg».proof.Proof.Gen.ReferenceIdeal.Run
import proofs.«175789_j74741020885129_2_alg».proof.Proof.Gen.ReferenceIdeal.Read
import proofs.«175789_j74741020885129_2_alg».proof.Proof.K.Frame
import proofs.«175789_j74741020885129_2_alg».proof.Proof.KI.KRun
import proofs.«175789_j74741020885129_2_alg».proof.Proof.RefSide
import proofs.«175789_j74741020885129_2_alg».proof.Proof.RowLaw
import proofs.«175789_j74741020885129_2_alg».proof.Proof.Finite
import Idealize.ShloMosaic.Adequacy
import Idealize.ShloMosaic.Init

noncomputable section

namespace Cert.Proof

open Idealize.ShloMosaic Idealize.SL.Sem

/-- The word-level kernel program runs and leaves its arguments as launched. -/
theorem frame_p : Cert.frame_Kernel := fun m ρ _ => Cert.Kernel.Fr.frame (F := Bits) m ρ

/-- So does its idealization. -/
theorem frame_pi : Cert.frame_KernelIdeal := fun m ρ _ => Cert.KernelIdeal.Fr.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at one scalar: the kernel's at the tail of its three quotients of row sums, the reference's at the
    same tail of its three projected quotients, and the quotients agree row by row because every input is finite. -/
theorem algebraic : Cert.algebraic_KernelIdeal_ReferenceIdeal := by
  intro m ρ m' ρ' hpre hagree
  refine ⟨fun c => ((fun _ => Cert.Sisdr.kerResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) : Cert.KernelIdeal.S_.Idx → EReal),
    Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2.1, (hagree c).2.2.2.2]
  funext i
  rw [Cert.Sisdr.Ref.val_eq]
  obtain ⟨f0, f1, f2, f3⟩ := Cert.Sisdr.Finite.finite_of_pre _ _ _ _ _ (hpre c)
  exact (Cert.Sisdr.kerResult_eq_refResult _ _ _ _ _ f0 f1 f2 f3).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
